-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S8 .f32) (main_v48 : IVec S_ 1) (main_v49 : FVec F S8x64 .f32) (main_v50 : FVec F S8x64 .f32) : IVec S_ 1 :=
  let main_v51 : IVec S8x64 1 := cmpf .olt main_v49 main_v50
  let main_c_19 : IVec S_ 1 := constantI S_ 1 1#1
  let main_v52 : IVec S_ 1 := (fun x v => Host.reduce IntOp.andi x v reducesTo_S8x64_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  main_v58

def fn_part2 {F : FTy → Type} [FloatOps F] (main_arg8 : FVec F S64x64 .f32) (main_arg9 : FVec F S64 .f32) (main_arg10 : FVec F S64x64 .f32) (main_arg11 : FVec F S8x64 .f32) (main_arg12 : FVec F S8 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S8x64 .f32 := Host.absf main_arg11
  let main_cst_18 : FVec F S_ .f32 := constant S_ .f32 0x7F800000#32
  let main_v50 : FVec F S8x64 .f32 := broadcastInDim S8x64 ![] bcast_S_S8x64 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S8x64 .f32) (main_arg12 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S8x64 .f32) (main_arg12 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S64x8 : Shape := ⟨2, ![64, 8]⟩
abbrev S1x8 : Shape := ⟨2, ![1, 8]⟩
abbrev S100000x8 : Shape := ⟨2, ![100000, 8]⟩
abbrev S5000x8 : Shape := ⟨2, ![5000, 8]⟩
abbrev S99999x8 : Shape := ⟨2, ![99999, 8]⟩

abbrev nBuf : Space → Nat
  | .hbm => 91
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S8x64, .f32⟩
  | .hbm, ⟨12, _⟩ => ⟨S8, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S64x64, .f32⟩
  | .hbm, ⟨65, _⟩ => ⟨S64x64, .f32⟩
  | .hbm, ⟨66, _⟩ => ⟨S1x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S64x64, .f32⟩
  | .hbm, ⟨84, _⟩ => ⟨S64x64, .f32⟩
  | .hbm, ⟨85, _⟩ => ⟨S1x64, .f32⟩
  | .hbm, ⟨86, _⟩ => ⟨S100000x64, .f32⟩
  | .hbm, ⟨87, _⟩ => ⟨S64x8, .f32⟩
  | .hbm, ⟨88, _⟩ => ⟨S1x8, .f32⟩
  | .hbm, ⟨89, _⟩ => ⟨S100000x8, .f32⟩
  | .hbm, ⟨90, _⟩ => ⟨S99999x8, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x8, .f32⟩
  | .local _ .vmem, ⟨30, _⟩ => ⟨S1x8, .f32⟩
  | .local _ .vmem, ⟨31, _⟩ => ⟨S5000x8, .f32⟩
  | .local _ .vmem, ⟨32, _⟩ => ⟨S5000x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S8x64_S64x8_1_0 : S8x64.Transposes [1, 0] S64x8
  shapeCasts_S8_S1x8 : S8.ShapeCasts S1x8
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  slices_S100000x8_S99999x8_0_0 : S100000x8.Slices ![0, 0] S99999x8
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x8.size a ≤ S64x8.size a
  hwx3_1 : ∀ i : grid3.Coords, EltTy.bits .f32 = 32 ∨ (Rect.block (s := S64x8) S64x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x8.size a ≤ S100000x8.size a
  hwx3_3 : ∀ i : grid3.Coords, EltTy.bits .f32 = 32 ∨ (Rect.block (s := S100000x8) S5000x8.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S64x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S5000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S8x64 : Shape := ⟨2, ![8, 64]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x8 : Shape := ⟨2, ![64, 8]⟩
abbrev S100000x8 : Shape := ⟨2, ![100000, 8]⟩
abbrev S1x8 : Shape := ⟨2, ![1, 8]⟩
abbrev S99999x8 : Shape := ⟨2, ![99999, 8]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S8x64, .f32⟩
  | 12 => ⟨S8, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S64x64, .f32⟩
  | 43 => ⟨S100000x64, .f32⟩
  | 44 => ⟨S1x64, .f32⟩
  | 45 => ⟨S100000x64, .f32⟩
  | 46 => ⟨S100000x64, .f32⟩
  | 47 => ⟨S64x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S64x64, .f32⟩
  | 79 => ⟨S100000x64, .f32⟩
  | 80 => ⟨S1x64, .f32⟩
  | 81 => ⟨S100000x64, .f32⟩
  | 82 => ⟨S100000x64, .f32⟩
  | 83 => ⟨S64x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S1600000, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S64x64, .f32⟩
  | 115 => ⟨S100000x64, .f32⟩
  | 116 => ⟨S1x64, .f32⟩
  | 117 => ⟨S100000x64, .f32⟩
  | 118 => ⟨S100000x64, .f32⟩
  | 119 => ⟨S64x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S64x8, .f32⟩
  | 126 => ⟨S100000x8, .f32⟩
  | 127 => ⟨S1x8, .f32⟩
  | _ => ⟨S100000x64, .f32⟩

abbrev hbmTy0_1 (i : Nat) : BufTy := match i % 128 with
  | 0 => ⟨S100000x8, .f32⟩
  | 1 => ⟨S100000x8, .f32⟩
  | 2 => ⟨S99999x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S8x64_S64x8_1_0 : S8x64.Transposes [1, 0] S64x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  slices_S100000x8_S99999x8_0_0 : S100000x8.Slices ![0, 0] S99999x8
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x8_S100000x8_1_0_0_1_n_n_wf : DotDims.WF S100000x64 S64x8 S100000x8 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf

class Facts : Prop extends Facts₀ where

variable [Facts]
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.SageSpec.lean ====
/-
  The mathematics of one mean-aggregation graph layer, on the extended reals, index by index.

  A layer takes node features `h` ([R, I]), their neighbourhood means `mean` ([R, I]), two weight matrices already laid
  out as [I, H], and a bias row [1, H], and returns at entry (p, q)

      max ( Σ_k mean(p,k) · wl(k,q)  +  Σ_k h(p,k) · wr(k,q)  +  b(0,q) ,  0 ).

  Entry (p, q) reads row p of `mean` and of `h` only, so the function of a block of rows is the block of the function.

  Three facts join the two spellings of a layer:
  * `combine_body_apply`: a vector unit's spelling — two matrix products into zero accumulators (operands rounded to
    bfloat16, the identity on the extended reals), their sum, plus the bias row repeated down the rows, floored at the zero
    splat — is that entry;
  * `host_combine_apply`: the host's spelling — `dot_general`, plus the bias broadcast in two steps, plus the second
    `dot_general`, floored at a broadcast zero — is the same entry; the two sums `(A + B) + b` and `(A + b) + B` agree
    because addition of extended reals is commutative and associative (no finiteness is needed);
  * `mean_scale_eq`: scaling the neighbourhood sums by the reciprocal `1 / max(cnt, 1)` is dividing them by
    `max(cnt, 1)`: the divisor is at least one, so it is not zero, and off zero the quotient `x / y` of extended reals
    IS the product `x · y⁻¹`, whatever `x` and `y` (the infinities included).
  The last projection (`project`, `project_body_apply`, `host_project_apply`) is one matrix product plus a bias row.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«160452_j37692632990431_1_alg».proof.Proof.LibMlpRows

noncomputable section

namespace Cert.Sage

open Idealize.ShloMosaic Idealize.ShloMosaic.ValueIdx
open scoped BigOperators

/-! ## One layer, entry by entry -/

/-- Entry `q` of a layer's output row, from the row of means, the row of features, the weights and the bias row. -/
def combineRow {I H : ℕ} (mrow hrow : Fin I → EReal) (wl wr : (⟨2, ![I, H]⟩ : Shape).Idx → EReal)
    (b : (⟨2, ![1, H]⟩ : Shape).Idx → EReal) (q : Fin H) : EReal :=
  max ((∑ k : Fin I, mrow k * wl (ix2 k q)) + (∑ k : Fin I, hrow k * wr (ix2 k q)) + b (ix2 (0 : Fin 1) q))
    (Ideal.ofBits .f32 0x00000000#32)

/-- The layer on every row: entry (r, q) depends on row r of `mean` and of `h` only. -/
def combine {R I H : ℕ} (mean h : (⟨2, ![R, I]⟩ : Shape).Idx → EReal) (wl : (⟨2, ![I, H]⟩ : Shape).Idx → EReal)
    (b : (⟨2, ![1, H]⟩ : Shape).Idx → EReal) (wr : (⟨2, ![I, H]⟩ : Shape).Idx → EReal) : (⟨2, ![R, H]⟩ : Shape).Idx → EReal :=
  fun i => combineRow (fun k => mean (ix2 (i 0) k)) (fun k => h (ix2 (i 0) k)) wl wr b (i 1)

theorem combine_ix2 {R I H : ℕ} (mean h : (⟨2, ![R, I]⟩ : Shape).Idx → EReal) (wl : (⟨2, ![I, H]⟩ : Shape).Idx → EReal)
    (b : (⟨2, ![1, H]⟩ : Shape).Idx → EReal) (wr : (⟨2, ![I, H]⟩ : Shape).Idx → EReal) (p : Fin R) (q : Fin H) :
    combine mean h wl b wr (ix2 p q) = combineRow (fun k => mean (ix2 p k)) (fun k => h (ix2 p k)) wl wr b q := rfl

/-- The vector unit's spelling of a layer, at an entry. -/
theorem combine_body_apply {R I H : ℕ} (d : DotDims ⟨2, ![R, I]⟩ ⟨2, ![I, H]⟩ ⟨2, ![R, H]⟩) (hd : d = DotDims.plain R I H)
    (y0 y1 : FVec Ideal ⟨2, ![R, I]⟩ .f32) (y2 y4 : FVec Ideal ⟨2, ![I, H]⟩ .f32) (y3 : FVec Ideal ⟨2, ![1, H]⟩ .f32)
    (hB : (⟨2, ![1, H]⟩ : Shape).Broadcasts ⟨2, ![R, H]⟩) (ht : FTy.bf16.bits < FTy.f32.bits) (p : Fin R) (q : Fin H) :
    maximumf (addf (addf (matmul d none (truncf .bf16 y0 ht) (truncf .bf16 y2 ht) (constant ⟨2, ![R, H]⟩ .f32 0x00000000#32))
          (matmul d none (truncf .bf16 y1 ht) (truncf .bf16 y4 ht) (constant ⟨2, ![R, H]⟩ .f32 0x00000000#32)))
        (broadcastTo ⟨2, ![R, H]⟩ y3 hB)) (broadcast ⟨2, ![R, H]⟩ (Scalar.ofBits .f32 0x00000000#32)) (ix2 p q)
    = combineRow (fun k => y0 (ix2 p k)) (fun k => y1 (ix2 p k)) y2 y4 y3 q := by
  subst hd
  simp only [combineRow, matmul, addf_apply, maximumf_apply, truncf_apply, Cert.LibMlp.matmul_zero_plain,
    broadcastTo_1b_ab_apply, broadcast_apply]
  rfl

/-- A bias vector broadcast to one row and then down the rows reads, at (r, k), the vector's entry k. -/
theorem bias_rows_apply {α : Type} {R H : ℕ} (b1 : (⟨1, ![H]⟩ : Shape).Idx → α)
    (hb1 : (⟨1, ![H]⟩ : Shape).BroadcastsInDim ⟨2, ![1, H]⟩ ![1]) (hB1 : (⟨2, ![1, H]⟩ : Shape).BroadcastsInDim ⟨2, ![R, H]⟩ ![0, 1])
    (r : Fin R) (k : Fin H) :
    broadcastInDim ⟨2, ![R, H]⟩ ![0, 1] hB1 (broadcastInDim ⟨2, ![1, H]⟩ ![1] hb1 b1) (ix2 r k) = b1 (ix1 k) := by
  rw [broadcastInDim_apply ![0, 1] hB1 _ (ix2 r k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb1 _ (ix2 (0 : Fin 1) k) (ix1 k) (fun a => by
    match a with
    | ⟨0, _⟩ => show k.val = if H = 1 then 0 else k.val; split <;> [(have := k.isLt; omega); rfl])

/-- The host's spelling of a layer, at an entry: the same entry, the bias vector read as its one-row layout. -/
theorem host_combine_apply {R I H : ℕ} (d : DotDims ⟨2, ![R, I]⟩ ⟨2, ![I, H]⟩ ⟨2, ![R, H]⟩) (hd : d = DotDims.plain R I H)
    (mean h : FVec Ideal ⟨2, ![R, I]⟩ .f32) (wl wr : FVec Ideal ⟨2, ![I, H]⟩ .f32) (bl : FVec Ideal ⟨1, ![H]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![]) (hc : (⟨1, ![H]⟩ : Shape).ShapeCasts ⟨2, ![1, H]⟩)
    (p : Fin R) (q : Fin H) :
    maximumf (addf (addf (Host.dotGeneral d none mean wl)
          (broadcastInDim ⟨2, ![R, H]⟩ ![0, 1] hB1 (broadcastInDim ⟨2, ![1, H]⟩ ![1] hb1 bl)))
        (Host.dotGeneral d none h wr))
      (broadcastInDim ⟨2, ![R, H]⟩ ![] hz (constant (F := Ideal) ⟨0, ![]⟩ .f32 0x00000000#32)) (ix2 p q)
    = combineRow (fun k => mean (ix2 p k)) (fun k => h (ix2 p k)) wl wr (shapeCast ⟨2, ![1, H]⟩ bl hc) q := by
  subst hd
  have zero : broadcastInDim ⟨2, ![R, H]⟩ ![] hz (constant (F := Ideal) ⟨0, ![]⟩ .f32 0x00000000#32) (ix2 p q)
      = Ideal.ofBits .f32 0x00000000#32 := broadcastInDim_apply ![] hz _ (ix2 p q) ix0 (fun a => a.elim0)
  have bias : broadcastInDim ⟨2, ![R, H]⟩ ![0, 1] hB1 (broadcastInDim ⟨2, ![1, H]⟩ ![1] hb1 bl) (ix2 p q) = bl (ix1 q) :=
    bias_rows_apply bl hb1 hB1 p q
  simp only [combineRow, Host.dotGeneral, addf_apply, maximumf_apply, Cert.LibMlp.dotGeneral_plain, bias, zero,
    shapeCast_a_1a_apply]
  rw [add_right_comm]

/-! ## The mean: scaling by the reciprocal of the degree is dividing by the degree -/

/-- Off zero, the product with the reciprocal is the quotient, for every pair of extended reals. -/
theorem mul_div_one (a c : EReal) (hc : c ≠ 0) : a * Ideal.div 1 c = Ideal.div a c := by
  unfold Ideal.div
  rw [if_neg hc, if_neg hc, one_mul]

/-- A maximum with one is not zero. -/
theorem max_one_ne_zero (x : EReal) : max x (1 : EReal) ≠ 0 :=
  fun h => absurd ((le_max_right x (1 : EReal)).trans_eq h) (by norm_num)

/-- A vector broadcast to a column and then along the lanes reads, at (p, q), the vector's entry p. -/
theorem column_lanes_apply {α : Type} {N C : ℕ} (v : (⟨1, ![N]⟩ : Shape).Idx → α)
    (hb : (⟨1, ![N]⟩ : Shape).BroadcastsInDim ⟨2, ![N, 1]⟩ ![0]) (hB : (⟨2, ![N, 1]⟩ : Shape).BroadcastsInDim ⟨2, ![N, C]⟩ ![0, 1])
    (p : Fin N) (q : Fin C) :
    broadcastInDim ⟨2, ![N, C]⟩ ![0, 1] hB (broadcastInDim ⟨2, ![N, 1]⟩ ![0] hb v) (ix2 p q) = v (ix1 p) := by
  rw [broadcastInDim_apply ![0, 1] hB _ (ix2 p q) (ix2 p (0 : Fin 1)) (fun a => by
    match a with
    | ⟨0, _⟩ => show p.val = if N = 1 then 0 else p.val; split <;> [(have := p.isLt; omega); rfl]
    | ⟨1, _⟩ => rfl)]
  exact broadcastInDim_apply ![0] hb _ (ix2 p (0 : Fin 1)) (ix1 p) (fun a => by
    match a with
    | ⟨0, _⟩ => show p.val = if N = 1 then 0 else p.val; split <;> [(have := p.isLt; omega); rfl])

/-- The neighbourhood sums times the reciprocal of `max(cnt, 1)`, spread along the lanes, are the sums divided by
    `max(cnt, 1)` spread along the lanes: entry by entry `a · (1 / c) = a / c` with `c ≥ 1`. -/
theorem mean_scale_eq {N C : ℕ} (agg : FVec Ideal ⟨2, ![N, C]⟩ .f32) (cnt : FVec Ideal ⟨1, ![N]⟩ .f32)
    (hs : (⟨0, ![]⟩ : Shape).BroadcastsInDim ⟨1, ![N]⟩ ![])
    (hb : (⟨1, ![N]⟩ : Shape).BroadcastsInDim ⟨2, ![N, 1]⟩ ![0]) (hB : (⟨2, ![N, 1]⟩ : Shape).BroadcastsInDim ⟨2, ![N, C]⟩ ![0, 1]) :
    mulf agg (broadcastInDim ⟨2, ![N, C]⟩ ![0, 1] hB (broadcastInDim ⟨2, ![N, 1]⟩ ![0] hb
        (Host.divf (broadcastInDim ⟨1, ![N]⟩ ![] hs (constant (F := Ideal) ⟨0, ![]⟩ .f32 0x3F800000#32))
          (maximumf cnt (broadcastInDim ⟨1, ![N]⟩ ![] hs (constant (F := Ideal) ⟨0, ![]⟩ .f32 0x3F800000#32))))))
    = Host.divf agg (broadcastInDim ⟨2, ![N, C]⟩ ![0, 1] hB (broadcastInDim ⟨2, ![N, 1]⟩ ![0] hb
        (maximumf cnt (broadcastInDim ⟨1, ![N]⟩ ![] hs (constant (F := Ideal) ⟨0, ![]⟩ .f32 0x3F800000#32))))) := by
  funext i
  obtain ⟨p, q, rfl⟩ : ∃ (p : Fin N) (q : Fin C), i = ix2 p q := ⟨i 0, i 1, eq_ix2 i⟩
  have one : ∀ r : Fin N, broadcastInDim ⟨1, ![N]⟩ ![] hs (constant (F := Ideal) ⟨0, ![]⟩ .f32 0x3F800000#32) (ix1 r) = (1 : EReal) :=
    fun r => (broadcastInDim_apply ![] hs _ (ix1 r) ix0 (fun a => a.elim0)).trans Ideal.ofBits_one_f32
  have col : ∀ v : FVec Ideal ⟨1, ![N]⟩ .f32,
      broadcastInDim ⟨2, ![N, C]⟩ ![0, 1] hB (broadcastInDim ⟨2, ![N, 1]⟩ ![0] hb v) (ix2 p q) = v (ix1 p) :=
    fun v => column_lanes_apply v hb hB p q
  simp only [mulf_apply, Host.divf, hostDivf_apply, col, maximumf_apply, one, Ideal.hostDivf_def, Ideal.mulf_def,
    Ideal.maximumf_def]
  exact mul_div_one _ _ (max_one_ne_zero _)

/-! ## The last projection -/

/-- Entry `q` of the projected row: the row's product with column `q` of the weights, plus the bias. -/
def projectRow {I O : ℕ} (hrow : Fin I → EReal) (w : (⟨2, ![I, O]⟩ : Shape).Idx → EReal)
    (b : (⟨2, ![1, O]⟩ : Shape).Idx → EReal) (q : Fin O) : EReal :=
  (∑ k : Fin I, hrow k * w (ix2 k q)) + b (ix2 (0 : Fin 1) q)

/-- The projection on every row. -/
def project {R I O : ℕ} (h : (⟨2, ![R, I]⟩ : Shape).Idx → EReal) (w : (⟨2, ![I, O]⟩ : Shape).Idx → EReal)
    (b : (⟨2, ![1, O]⟩ : Shape).Idx → EReal) : (⟨2, ![R, O]⟩ : Shape).Idx → EReal :=
  fun i => projectRow (fun k => h (ix2 (i 0) k)) w b (i 1)

theorem project_ix2 {R I O : ℕ} (h : (⟨2, ![R, I]⟩ : Shape).Idx → EReal) (w : (⟨2, ![I, O]⟩ : Shape).Idx → EReal)
    (b : (⟨2, ![1, O]⟩ : Shape).Idx → EReal) (p : Fin R) (q : Fin O) :
    project h w b (ix2 p q) = projectRow (fun k => h (ix2 p k)) w b q := rfl

/-- The vector unit's spelling of the projection, at an entry. -/
theorem project_body_apply {R I O : ℕ} (d : DotDims ⟨2, ![R, I]⟩ ⟨2, ![I, O]⟩ ⟨2, ![R, O]⟩) (hd : d = DotDims.plain R I O)
    (y0 : FVec Ideal ⟨2, ![R, I]⟩ .f32) (y1 : FVec Ideal ⟨2, ![I, O]⟩ .f32) (y2 : FVec Ideal ⟨2, ![1, O]⟩ .f32)
    (hB : (⟨2, ![1, O]⟩ : Shape).Broadcasts ⟨2, ![R, O]⟩) (ht : FTy.bf16.bits < FTy.f32.bits) (p : Fin R) (q : Fin O) :
    addf (matmul d none (truncf .bf16 y0 ht) (truncf .bf16 y1 ht) (constant ⟨2, ![R, O]⟩ .f32 0x00000000#32))
        (broadcastTo ⟨2, ![R, O]⟩ y2 hB) (ix2 p q)
    = projectRow (fun k => y0 (ix2 p k)) y1 y2 q := by
  subst hd
  simp only [projectRow, matmul, addf_apply, truncf_apply, Cert.LibMlp.matmul_zero_plain, broadcastTo_1b_ab_apply]

/-- The host's spelling of the projection, at an entry. -/
theorem host_project_apply {R I O : ℕ} (d : DotDims ⟨2, ![R, I]⟩ ⟨2, ![I, O]⟩ ⟨2, ![R, O]⟩) (hd : d = DotDims.plain R I O)
    (h : FVec Ideal ⟨2, ![R, I]⟩ .f32) (w : FVec Ideal ⟨2, ![I, O]⟩ .f32) (bo : FVec Ideal ⟨1, ![O]⟩ .f32)
    (hb1 : (⟨1, ![O]⟩ : Shape).BroadcastsInDim ⟨2, ![1, O]⟩ ![1]) (hB1 : (⟨2, ![1, O]⟩ : Shape).BroadcastsInDim ⟨2, ![R, O]⟩ ![0, 1])
    (hc : (⟨1, ![O]⟩ : Shape).ShapeCasts ⟨2, ![1, O]⟩) (p : Fin R) (q : Fin O) :
    addf (Host.dotGeneral d none h w)
        (broadcastInDim ⟨2, ![R, O]⟩ ![0, 1] hB1 (broadcastInDim ⟨2, ![1, O]⟩ ![1] hb1 bo)) (ix2 p q)
    = projectRow (fun k => h (ix2 p k)) w (shapeCast ⟨2, ![1, O]⟩ bo hc) q := by
  subst hd
  have bias : broadcastInDim ⟨2, ![R, O]⟩ ![0, 1] hB1 (broadcastInDim ⟨2, ![1, O]⟩ ![1] hb1 bo) (ix2 p q) = bo (ix1 q) :=
    bias_rows_apply bo hb1 hB1 p q
  simp only [projectRow, Host.dotGeneral, addf_apply, Cert.LibMlp.dotGeneral_plain, bias, shapeCast_a_1a_apply]

end Cert.Sage

end
-- ==== Proof.Chain0.lean ====
/-
  The idealized kernel program's host side, named.

  From the edge list the program takes, once, the source node of every edge (a negative index wrapped around by the node
  count) and the target node of every edge, and from the targets the reciprocal of each node's in-degree floored at one.
  One graph layer then is: gather the source rows of the features, add them up per target node, scale every node's sum
  by its reciprocal degree (the neighbourhood mean), and give the means, the features, the two transposed weight matrices
  and the bias laid out as one row to the kernel call, which returns the layer of them.

  This module names those terms and reads the buffers after the first stretch of host operations — the ones the first
  kernel call takes, and the ones later stretches read again.
-/
import proofs.«160452_j37692632990431_1_alg».proof.Proof.Gen.KernelIdeal.Frame
import proofs.«160452_j37692632990431_1_alg».proof.Proof.SageSpec

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

abbrev Edges := (⟨S2x1600000, .i32⟩ : BufTy).Contents (Elt Ideal)
abbrev EdgeVec := (⟨S1600000, .i32⟩ : BufTy).Contents (Elt Ideal)
abbrev Feat := FVec Ideal S100000x64 .f32
abbrev Weight := FVec Ideal S64x64 .f32
abbrev Bias := FVec Ideal S64 .f32

/-- Row 0 of the edge list: every edge's source node. -/
def srcVec (ei : Edges) : EdgeVec :=
  shapeCast S1600000 (extractStridedSlice S1x1600000 ![0, 0] ei slices_S2x1600000_S1x1600000_0_0) shapeCasts_S1x1600000_S1600000

/-- Row 1 of the edge list: every edge's target node. -/
def dstVec (ei : Edges) : EdgeVec :=
  shapeCast S1600000 (extractStridedSlice S1x1600000 ![1, 0] ei slices_S2x1600000_S1x1600000_1_0) shapeCasts_S1x1600000_S1600000

/-- The sources as a column of gather starts, a negative one wrapped around by the node count. -/
def srcCol (s : EdgeVec) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per target node, the sum of the source rows of the features over its incoming edges. -/
def neighbourSum (s d : EdgeVec) (h : Feat) : Feat :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h (srcCol s))

/-- Per node, the number of incoming edges (a sum of ones). -/
def inDegree (d : EdgeVec) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- Per node, as a column: one over the in-degree floored at one. -/
def invDegree (d : EdgeVec) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal) (inDegree d) (broadcastInDim S100000 ![] bcast_S_S100000 (constant (F := Ideal) S_ .f32 0x3F800000#32))))

/-- The neighbourhood mean as the program spells it: the sums times the reciprocal degree spread along the lanes. -/
def scaledSum (s d : EdgeVec) (h : Feat) : Feat :=
  mulf (F := Ideal) (neighbourSum s d h) (broadcastInDim S100000x64 ![0, 1] bcast_S100000x1_S100000x64_0_1 (invDegree d))

/-- One layer of the program: the layer function of the scaled sums, the features, the transposed weights, the bias row. -/
def layer (s d : EdgeVec) (h : Feat) (wl : Weight) (bl : Bias) (wr : Weight) : Feat :=
  Cert.Sage.combine (scaledSum s d h) h (transpose S64x64 [1, 0] wl transposes_S64x64_S64x64_1_0)
    (shapeCast S1x64 bl shapeCasts_S64_S1x64) (transpose S64x64 [1, 0] wr transposes_S64x64_S64x64_1_0)

variable (m : (ℓ : Loc nD τ sig) → Buf (Elt Ideal) ℓ) (ρ : Dev nD → PrngReg) (c : Dev nD)

/-- The source and target vectors of the launch memory's edge list. -/
abbrev src : EdgeVec := srcVec (m ((c : Thread nD τ).loc main_arg1))
abbrev dst : EdgeVec := dstVec (m ((c : Thread nD τ).loc main_arg1))

/-! ## After the first stretch of host operations -/

set_option maxHeartbeats 8000000 in
theorem W1_v24 : W1 m ρ c (Proc.devRef .tc main_v24) = scaledSum (src m c) (dst m c) (m ((c : Thread nD τ).loc main_arg0)) := by
  show StableHlo.after hostOps0 (W0 m ρ c) (Proc.devRef .tc main_v24) = _
  after_results_simp <;> rfl

set_option maxHeartbeats 8000000 in
theorem W1_v25 : W1 m ρ c (Proc.devRef .tc main_v25) = transpose S64x64 [1, 0] (m ((c : Thread nD τ).loc main_arg2)) transposes_S64x64_S64x64_1_0 := by
  show StableHlo.after hostOps0 (W0 m ρ c) (Proc.devRef .tc main_v25) = _
  after_results_simp <;> rfl

set_option maxHeartbeats 8000000 in
theorem W1_v26 : W1 m ρ c (Proc.devRef .tc main_v26) = transpose S64x64 [1, 0] (m ((c : Thread nD τ).loc main_arg4)) transposes_S64x64_S64x64_1_0 := by
  show StableHlo.after hostOps0 (W0 m ρ c) (Proc.devRef .tc main_v26) = _
  after_results_simp <;> rfl

set_option maxHeartbeats 8000000 in
theorem W1_v27 : W1 m ρ c (Proc.devRef .tc main_v27) = shapeCast S1x64 (m ((c : Thread nD τ).loc main_arg3)) shapeCasts_S64_S1x64 := by
  show StableHlo.after hostOps0 (W0 m ρ c) (Proc.devRef .tc main_v27) = _
  after_results_simp <;> rfl

set_option maxHeartbeats 8000000 in
theorem W1_v1 : W1 m ρ c (Proc.devRef .tc main_v1) = src m c := by
  show StableHlo.after hostOps0 (W0 m ρ c) (Proc.devRef .tc main_v1) = _
  after_results_simp <;> rfl

set_option maxHeartbeats 8000000 in
theorem W1_v3 : W1 m ρ c (Proc.devRef .tc main_v3) = dst m c := by
  show StableHlo.after hostOps0 (W0 m ρ c) (Proc.devRef .tc main_v3) = _
  after_results_simp <;> rfl

set_option maxHeartbeats 8000000 in
theorem W1_v12 : W1 m ρ c (Proc.devRef .tc main_v12) = invDegree (dst m c) := by
  show StableHlo.after hostOps0 (W0 m ρ c) (Proc.devRef .tc main_v12) = _
  after_results_simp <;> rfl

end Cert.KernelIdeal.Chain

end
-- ==== Proof.Layer0.lean ====
/-
  Kernel call 0 of the idealized program: what its output array holds when the call returns, as one function of the
  arrays it finds at entry.

  The call walks 20 grid points.  Point t stages rows [5000·t, 5000·t + 5000) of the array of neighbourhood means and of
  the array of node features, and the two weight matrices and the bias row whole; its body stores one block, whose entry
  (p, q) is the layer's entry for row p of the staged rows (the body's arithmetic is the vector unit's spelling of a layer);
  the block is written back to rows [5000·t, 5000·t + 5000) of the output.  A layer's entry reads its own row only, so that
  block is the block of the layer applied to the whole arrays, and the 20 blocks tile the output: the output array ends
  holding the layer of the whole arrays.
-/
import proofs.«160452_j37692632990431_1_alg».proof.Proof.Gen.KernelIdeal.Frame
import proofs.«160452_j37692632990431_1_alg».proof.Proof.SageSpec

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem dot_plain : dot_S5000x64_S64x64_S5000x64_1_0_0_1_n_n = DotDims.plain 5000 64 64 := rfl

/-- The body's stored value at entry (p, q): the layer's entry for row p of the staged blocks. -/
theorem payload_entry (x0 x1 : Vec Ideal S5000x64 .f32) (x2 x4 : Vec Ideal S64x64 .f32) (x3 : Vec Ideal S1x64 .f32)
    (p : Fin 5000) (q : Fin 64) :
    k0_pay1 x0 x1 x2 x4 x3 (ix2 p q)
      = Cert.Sage.combineRow (fun k => x0 (ix2 p k)) (fun k => x1 (ix2 p k)) x2 x4 x3 q := by
  unfold k0_pay1
  simp only [shapeCast_self]
  exact Cert.Sage.combine_body_apply _ dot_plain x0 x1 x2 x4 x3 _ _ p q

/-- A block of rows, offset `o`, of the layer of whole arrays: when the staged blocks are the rows `o + ·` of the arrays of
    means and of features, and the weights and the bias are staged whole, the body's stored block is the layer of the whole
    arrays read at those rows. -/
theorem block_entry (A0 A1 : S100000x64.Idx → EReal) (A2 A4 : S64x64.Idx → EReal) (A3 : S1x64.Idx → EReal)
    (x0 x1 : Vec Ideal S5000x64 .f32) (x2 x4 : Vec Ideal S64x64 .f32) (x3 : Vec Ideal S1x64 .f32)
    (e : S5000x64.Idx → S100000x64.Idx) (o : ℕ)
    (he0 : ∀ y, ((e y) 0).val = o + (y 0).val) (he1 : ∀ y, ((e y) 1).val = (y 1).val)
    (h0 : ∀ y, x0 y = A0 (e y)) (h1 : ∀ y, x1 y = A1 (e y)) (h2 : x2 = A2) (h3 : x3 = A3) (h4 : x4 = A4)
    (j : S5000x64.Idx) :
    k0_pay1 (F := Ideal) x0 x1 x2 x4 x3 j = Cert.Sage.combine A0 A1 A2 A3 A4 (e j) := by
  subst h2 h3 h4
  obtain ⟨p, q, rfl⟩ : ∃ (p : Fin 5000) (q : Fin 64), j = ix2 p q := ⟨j 0, j 1, eq_ix2 j⟩
  obtain ⟨r, hr⟩ : ∃ r : Fin 100000, r.val = o + p.val := ⟨⟨((e (ix2 p q)) 0).val, ((e (ix2 p q)) 0).isLt⟩, he0 (ix2 p q)⟩
  have hrow : ∀ k : Fin 64, e (ix2 p k) = ix2 r k := fun k => funext fun a => Fin.ext (by
    match a with
    | ⟨0, _⟩ => show ((e (ix2 p k)) 0).val = r.val; rw [hr]; exact he0 (ix2 p k)
    | ⟨1, _⟩ => exact he1 (ix2 p k))
  refine (payload_entry x0 x1 x2 x4 x3 p q).trans ?_
  rw [hrow q, Cert.Sage.combine_ix2]
  simp only [h0, h1, hrow]

/-- The printed index maps over the grid: the row-blocked windows sit at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block of rows is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What point t writes back is block t of the layer of the arrays the call finds at entry. -/
theorem flushed_eq (c : Dev nD) (t : Fin cfg0.N) :
    (dat0 V c).flushed 5 t = ((cfg0.win 5).blk t).view.read (Elt Ideal)
      (Cert.Sage.combine (V c main_v24) (V c main_arg0) (V c main_v25) (V c main_v27) (V c main_v26)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31, e40, e41, e50, e51⟩ := idx_facts t
  funext j
  refine block_entry (V c main_v24) (V c main_arg0) (V c main_v25) (V c main_v26) (V c main_v27) _ _ _ _ _
    (fun y => ((cfg0.win 5).blk t).view.emb y) (t.val * 5000) ?_ ?_ ?_ ?_ ?_ ?_ ?_ j
  · intro y
    show win0_5.index t (0 : Fin 2) * 5000 + 1 * (y 0).val = t.val * 5000 + (y 0).val
    rw [e50]; omega
  · intro y
    show win0_5.index t (1 : Fin 2) * 64 + 1 * (y 1).val = (y 1).val
    rw [e51]; omega
  · intro y
    show V c main_v24 (((cfg0.win 0).blk t).view.emb y) = V c main_v24 (((cfg0.win 5).blk t).view.emb y)
    refine congrArg _ (funext fun a => Fin.ext ?_)
    match a with
    | ⟨0, _⟩ => show win0_0.index t (0 : Fin 2) * 5000 + 1 * (y 0).val = win0_5.index t (0 : Fin 2) * 5000 + 1 * (y 0).val; rw [e00, e50]
    | ⟨1, _⟩ => show win0_0.index t (1 : Fin 2) * 64 + 1 * (y 1).val = win0_5.index t (1 : Fin 2) * 64 + 1 * (y 1).val; rw [e01, e51]
  · intro y
    show V c main_arg0 (((cfg0.win 1).blk t).view.emb y) = V c main_arg0 (((cfg0.win 5).blk t).view.emb y)
    refine congrArg _ (funext fun a => Fin.ext ?_)
    match a with
    | ⟨0, _⟩ => show win0_1.index t (0 : Fin 2) * 5000 + 1 * (y 0).val = win0_5.index t (0 : Fin 2) * 5000 + 1 * (y 0).val; rw [e10, e50]
    | ⟨1, _⟩ => show win0_1.index t (1 : Fin 2) * 64 + 1 * (y 1).val = win0_5.index t (1 : Fin 2) * 64 + 1 * (y 1).val; rw [e11, e51]
  · funext y
    show V c main_v25 (((cfg0.win 2).blk t).view.emb y) = V c main_v25 y
    refine congrArg _ (funext fun a => Fin.ext ?_)
    match a with
    | ⟨0, _⟩ => show win0_2.index t (0 : Fin 2) * 64 + 1 * (y 0).val = (y 0).val; rw [e20]; omega
    | ⟨1, _⟩ => show win0_2.index t (1 : Fin 2) * 64 + 1 * (y 1).val = (y 1).val; rw [e21]; omega
  · funext y
    show V c main_v27 (((cfg0.win 3).blk t).view.emb y) = V c main_v27 y
    refine congrArg _ (funext fun a => Fin.ext ?_)
    match a with
    | ⟨0, _⟩ => show win0_3.index t (0 : Fin 2) * 1 + 1 * (y 0).val = (y 0).val; rw [e30]; omega
    | ⟨1, _⟩ => show win0_3.index t (1 : Fin 2) * 64 + 1 * (y 1).val = (y 1).val; rw [e31]; omega
  · funext y
    show V c main_v26 (((cfg0.win 4).blk t).view.emb y) = V c main_v26 y
    refine congrArg _ (funext fun a => Fin.ext ?_)
    match a with
    | ⟨0, _⟩ => show win0_4.index t (0 : Fin 2) * 64 + 1 * (y 0).val = (y 0).val; rw [e40]; omega
    | ⟨1, _⟩ => show win0_4.index t (1 : Fin 2) * 64 + 1 * (y 1).val = (y 1).val; rw [e41]; omega

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v28).slice (win0_5.rect t)).set ↔ _
  rw [View.set_slice_whole, Rect.mem_set_unit]
  exact Iff.rfl

/-- The output array when the call returns: the layer of the arrays found at entry. -/
theorem final (c : Dev nD) :
    (dat0 V c).arrAt 5 cfg0.N
      = Cert.Sage.combine (V c main_v24) (V c main_arg0) (V c main_v25) (V c main_v27) (V c main_v26) :=
  (dat0 V c).arrAt_eq_of_cover 5 _ (fun t _ => flushed_eq V c t) fun i => by
    have hi0 : (i 0).val < 100000 := (i 0).isLt
    have hi1 : (i 1).val < 64 := (i 1).isLt
    obtain ⟨t, ht⟩ := idx_onto ⟨(i 0).val / 5000, by omega⟩
    have q0 : win0_5.index t (0 : Fin 2) = (i 0).val / 5000 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 64 ≤ (i 1).val ∧ (i 1).val < win0_5.index t (1 : Fin 2) * 64 + 64; omega

end Cert.KernelIdeal.Layer0

end
-- ==== Proof.Chain1.lean ====
/-
  The idealized kernel program, from the launch to the second kernel call's entry.

  The first kernel call finds the scaled neighbourhood sums of the input features, the input features, and the first
  layer's transposed weights and bias row; it leaves the first layer's output in its output array and every other buffer as
  it was.  The next stretch of host operations reads that output, the edge vectors and the reciprocal degrees again and
  prepares the second call's operands the same way.
-/
import proofs.«160452_j37692632990431_1_alg».proof.Proof.Chain0
import proofs.«160452_j37692632990431_1_alg».proof.Proof.Layer0

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The features after the first layer. -/
def H1 : Feat := layer (src m c) (dst m c) (m ((c : Thread nD τ).loc main_arg0)) (m ((c : Thread nD τ).loc main_arg2)) (m ((c : Thread nD τ).loc main_arg3)) (m ((c : Thread nD τ).loc main_arg4))

/-! ## Arguments the first stretch leaves alone -/

set_option maxHeartbeats 8000000 in
theorem W1_arg0 : W1 m ρ c (Proc.devRef .tc main_arg0) = (m ((c : Thread nD τ).loc main_arg0)) := by
  show StableHlo.after hostOps0 (W0 m ρ c) (Proc.devRef .tc main_arg0) = _
  after_results_simp <;> rfl

set_option maxHeartbeats 8000000 in
theorem W1_arg5 : W1 m ρ c (Proc.devRef .tc main_arg5) = (m ((c : Thread nD τ).loc main_arg5)) := by
  show StableHlo.after hostOps0 (W0 m ρ c) (Proc.devRef .tc main_arg5) = _
  after_results_simp <;> rfl

set_option maxHeartbeats 8000000 in
theorem W1_arg6 : W1 m ρ c (Proc.devRef .tc main_arg6) = (m ((c : Thread nD τ).loc main_arg6)) := by
  show StableHlo.after hostOps0 (W0 m ρ c) (Proc.devRef .tc main_arg6) = _
  after_results_simp <;> rfl

set_option maxHeartbeats 8000000 in
theorem W1_arg7 : W1 m ρ c (Proc.devRef .tc main_arg7) = (m ((c : Thread nD τ).loc main_arg7)) := by
  show StableHlo.after hostOps0 (W0 m ρ c) (Proc.devRef .tc main_arg7) = _
  after_results_simp <;> rfl

set_option maxHeartbeats 8000000 in
theorem W1_arg8 : W1 m ρ c (Proc.devRef .tc main_arg8) = (m ((c : Thread nD τ).loc main_arg8)) := by
  show StableHlo.after hostOps0 (W0 m ρ c) (Proc.devRef .tc main_arg8) = _
  after_results_simp <;> rfl

set_option maxHeartbeats 8000000 in
theorem W1_arg9 : W1 m ρ c (Proc.devRef .tc main_arg9) = (m ((c : Thread nD τ).loc main_arg9)) := by
  show StableHlo.after hostOps0 (W0 m ρ c) (Proc.devRef .tc main_arg9) = _
  after_results_simp <;> rfl

set_option maxHeartbeats 8000000 in
theorem W1_arg10 : W1 m ρ c (Proc.devRef .tc main_arg10) = (m ((c : Thread nD τ).loc main_arg10)) := by
  show StableHlo.after hostOps0 (W0 m ρ c) (Proc.devRef .tc main_arg10) = _
  after_results_simp <;> rfl

set_option maxHeartbeats 8000000 in
theorem W1_arg11 : W1 m ρ c (Proc.devRef .tc main_arg11) = (m ((c : Thread nD τ).loc main_arg11)) := by
  show StableHlo.after hostOps0 (W0 m ρ c) (Proc.devRef .tc main_arg11) = _
  after_results_simp <;> rfl

set_option maxHeartbeats 8000000 in
theorem W1_arg12 : W1 m ρ c (Proc.devRef .tc main_arg12) = (m ((c : Thread nD τ).loc main_arg12)) := by
  show StableHlo.after hostOps0 (W0 m ρ c) (Proc.devRef .tc main_arg12) = _
  after_results_simp <;> rfl

/-! ## At the first call's exit -/

/-- The first call's output array holds the first layer's output. -/
theorem W2_v28 : W2 m ρ c (Proc.devRef .tc main_v28) = H1 m c := by
  refine (W2_arr m ρ c 5).trans ?_
  rw [Layer0.final (V1 m ρ) c]
  show Cert.Sage.combine (W1 m ρ c (Proc.devRef .tc main_v24)) (W1 m ρ c (Proc.devRef .tc main_arg0)) (W1 m ρ c (Proc.devRef .tc main_v25))
    (W1 m ρ c (Proc.devRef .tc main_v27)) (W1 m ρ c (Proc.devRef .tc main_v26)) = _
  rw [W1_v24, W1_arg0, W1_v25, W1_v27, W1_v26]
  rfl

theorem W2_v1 : W2 m ρ c (Proc.devRef .tc main_v1) = src m c :=
  (W2_of_ne m ρ c main_v1 (by decide)).trans (W1_v1 m ρ c)

theorem W2_v3 : W2 m ρ c (Proc.devRef .tc main_v3) = dst m c :=
  (W2_of_ne m ρ c main_v3 (by decide)).trans (W1_v3 m ρ c)

theorem W2_v12 : W2 m ρ c (Proc.devRef .tc main_v12) = invDegree (dst m c) :=
  (W2_of_ne m ρ c main_v12 (by decide)).trans (W1_v12 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

theorem W2_arg9 : W2 m ρ c (Proc.devRef .tc main_arg9) = (m ((c : Thread nD τ).loc main_arg9)) :=
  (W2_of_ne m ρ c main_arg9 (by decide)).trans (W1_arg9 m ρ c)

theorem W2_arg10 : W2 m ρ c (Proc.devRef .tc main_arg10) = (m ((c : Thread nD τ).loc main_arg10)) :=
  (W2_of_ne m ρ c main_arg10 (by decide)).trans (W1_arg10 m ρ c)

theorem W2_arg11 : W2 m ρ c (Proc.devRef .tc main_arg11) = (m ((c : Thread nD τ).loc main_arg11)) :=
  (W2_of_ne m ρ c main_arg11 (by decide)).trans (W1_arg11 m ρ c)

theorem W2_arg12 : W2 m ρ c (Proc.devRef .tc main_arg12) = (m ((c : Thread nD τ).loc main_arg12)) :=
  (W2_of_ne m ρ c main_arg12 (by decide)).trans (W1_arg12 m ρ c)

/-! ## After the second stretch of host operations -/

set_option maxHeartbeats 8000000 in
theorem W3_v40 : W3 m ρ c (Proc.devRef .tc main_v40) = scaledSum (src m c) (dst m c) (H1 m c) := by
  show StableHlo.after hostOps1 (W2 m ρ c) (Proc.devRef .tc main_v40) = _
  after_results_simp
  rw [W2_v3, W2_v28, W2_v1, W2_v12]
  rfl

set_option maxHeartbeats 8000000 in
theorem W3_v28 : W3 m ρ c (Proc.devRef .tc main_v28) = H1 m c := by
  show StableHlo.after hostOps1 (W2 m ρ c) (Proc.devRef .tc main_v28) = _
  after_results_simp
  exact W2_v28 m ρ c

set_option maxHeartbeats 8000000 in
theorem W3_v41 : W3 m ρ c (Proc.devRef .tc main_v41) = transpose S64x64 [1, 0] (m ((c : Thread nD τ).loc main_arg5)) transposes_S64x64_S64x64_1_0 := by
  show StableHlo.after hostOps1 (W2 m ρ c) (Proc.devRef .tc main_v41) = _
  after_results_simp
  rw [W2_arg5] <;> rfl

set_option maxHeartbeats 8000000 in
theorem W3_v43 : W3 m ρ c (Proc.devRef .tc main_v43) = shapeCast S1x64 (m ((c : Thread nD τ).loc main_arg6)) shapeCasts_S64_S1x64 := by
  show StableHlo.after hostOps1 (W2 m ρ c) (Proc.devRef .tc main_v43) = _
  after_results_simp
  rw [W2_arg6] <;> rfl

set_option maxHeartbeats 8000000 in
theorem W3_v42 : W3 m ρ c (Proc.devRef .tc main_v42) = transpose S64x64 [1, 0] (m ((c : Thread nD τ).loc main_arg7)) transposes_S64x64_S64x64_1_0 := by
  show StableHlo.after hostOps1 (W2 m ρ c) (Proc.devRef .tc main_v42) = _
  after_results_simp
  rw [W2_arg7] <;> rfl

set_option maxHeartbeats 8000000 in
theorem W3_v1 : W3 m ρ c (Proc.devRef .tc main_v1) = src m c := by
  show StableHlo.after hostOps1 (W2 m ρ c) (Proc.devRef .tc main_v1) = _
  after_results_simp
  exact W2_v1 m ρ c

set_option maxHeartbeats 8000000 in
theorem W3_v3 : W3 m ρ c (Proc.devRef .tc main_v3) = dst m c := by
  show StableHlo.after hostOps1 (W2 m ρ c) (Proc.devRef .tc main_v3) = _
  after_results_simp
  exact W2_v3 m ρ c

set_option maxHeartbeats 8000000 in
theorem W3_v12 : W3 m ρ c (Proc.devRef .tc main_v12) = invDegree (dst m c) := by
  show StableHlo.after hostOps1 (W2 m ρ c) (Proc.devRef .tc main_v12) = _
  after_results_simp
  exact W2_v12 m ρ c

set_option maxHeartbeats 8000000 in
theorem W3_arg8 : W3 m ρ c (Proc.devRef .tc main_arg8) = (m ((c : Thread nD τ).loc main_arg8)) := by
  show StableHlo.after hostOps1 (W2 m ρ c) (Proc.devRef .tc main_arg8) = _
  after_results_simp
  exact W2_arg8 m ρ c

set_option maxHeartbeats 8000000 in
theorem W3_arg9 : W3 m ρ c (Proc.devRef .tc main_arg9) = (m ((c : Thread nD τ).loc main_arg9)) := by
  show StableHlo.after hostOps1 (W2 m ρ c) (Proc.devRef .tc main_arg9) = _
  after_results_simp
  exact W2_arg9 m ρ c

set_option maxHeartbeats 8000000 in
theorem W3_arg10 : W3 m ρ c (Proc.devRef .tc main_arg10) = (m ((c : Thread nD τ).loc main_arg10)) := by
  show StableHlo.after hostOps1 (W2 m ρ c) (Proc.devRef .tc main_arg10) = _
  after_results_simp
  exact W2_arg10 m ρ c

set_option maxHeartbeats 8000000 in
theorem W3_arg11 : W3 m ρ c (Proc.devRef .tc main_arg11) = (m ((c : Thread nD τ).loc main_arg11)) := by
  show StableHlo.after hostOps1 (W2 m ρ c) (Proc.devRef .tc main_arg11) = _
  after_results_simp
  exact W2_arg11 m ρ c

set_option maxHeartbeats 8000000 in
theorem W3_arg12 : W3 m ρ c (Proc.devRef .tc main_arg12) = (m ((c : Thread nD τ).loc main_arg12)) := by
  show StableHlo.after hostOps1 (W2 m ρ c) (Proc.devRef .tc main_arg12) = _
  after_results_simp
  exact W2_arg12 m ρ c

end Cert.KernelIdeal.Chain

end
-- ==== Proof.Layer1.lean ====
/-
  Kernel call 1 of the idealized program: what its output array holds when the call returns, as one function of the
  arrays it finds at entry.

  The call walks 20 grid points.  Point t stages rows [5000·t, 5000·t + 5000) of the array of neighbourhood means and of
  the array of node features, and the two weight matrices and the bias row whole; its body stores one block, whose entry
  (p, q) is the layer's entry for row p of the staged rows (the body's arithmetic is the vector unit's spelling of a layer);
  the block is written back to rows [5000·t, 5000·t + 5000) of the output.  A layer's entry reads its own row only, so that
  block is the block of the layer applied to the whole arrays, and the 20 blocks tile the output: the output array ends
  holding the layer of the whole arrays.
-/
import proofs.«160452_j37692632990431_1_alg».proof.Proof.Gen.KernelIdeal.Frame
import proofs.«160452_j37692632990431_1_alg».proof.Proof.SageSpec

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem dot_plain : dot_S5000x64_S64x64_S5000x64_1_0_0_1_n_n = DotDims.plain 5000 64 64 := rfl

/-- The body's stored value at entry (p, q): the layer's entry for row p of the staged blocks. -/
theorem payload_entry (x0 x1 : Vec Ideal S5000x64 .f32) (x2 x4 : Vec Ideal S64x64 .f32) (x3 : Vec Ideal S1x64 .f32)
    (p : Fin 5000) (q : Fin 64) :
    k1_pay1 x0 x1 x2 x4 x3 (ix2 p q)
      = Cert.Sage.combineRow (fun k => x0 (ix2 p k)) (fun k => x1 (ix2 p k)) x2 x4 x3 q := by
  unfold k1_pay1
  simp only [shapeCast_self]
  exact Cert.Sage.combine_body_apply _ dot_plain x0 x1 x2 x4 x3 _ _ p q

/-- A block of rows, offset `o`, of the layer of whole arrays: when the staged blocks are the rows `o + ·` of the arrays of
    means and of features, and the weights and the bias are staged whole, the body's stored block is the layer of the whole
    arrays read at those rows. -/
theorem block_entry (A0 A1 : S100000x64.Idx → EReal) (A2 A4 : S64x64.Idx → EReal) (A3 : S1x64.Idx → EReal)
    (x0 x1 : Vec Ideal S5000x64 .f32) (x2 x4 : Vec Ideal S64x64 .f32) (x3 : Vec Ideal S1x64 .f32)
    (e : S5000x64.Idx → S100000x64.Idx) (o : ℕ)
    (he0 : ∀ y, ((e y) 0).val = o + (y 0).val) (he1 : ∀ y, ((e y) 1).val = (y 1).val)
    (h0 : ∀ y, x0 y = A0 (e y)) (h1 : ∀ y, x1 y = A1 (e y)) (h2 : x2 = A2) (h3 : x3 = A3) (h4 : x4 = A4)
    (j : S5000x64.Idx) :
    k1_pay1 (F := Ideal) x0 x1 x2 x4 x3 j = Cert.Sage.combine A0 A1 A2 A3 A4 (e j) := by
  subst h2 h3 h4
  obtain ⟨p, q, rfl⟩ : ∃ (p : Fin 5000) (q : Fin 64), j = ix2 p q := ⟨j 0, j 1, eq_ix2 j⟩
  obtain ⟨r, hr⟩ : ∃ r : Fin 100000, r.val = o + p.val := ⟨⟨((e (ix2 p q)) 0).val, ((e (ix2 p q)) 0).isLt⟩, he0 (ix2 p q)⟩
  have hrow : ∀ k : Fin 64, e (ix2 p k) = ix2 r k := fun k => funext fun a => Fin.ext (by
    match a with
    | ⟨0, _⟩ => show ((e (ix2 p k)) 0).val = r.val; rw [hr]; exact he0 (ix2 p k)
    | ⟨1, _⟩ => exact he1 (ix2 p k))
  refine (payload_entry x0 x1 x2 x4 x3 p q).trans ?_
  rw [hrow q, Cert.Sage.combine_ix2]
  simp only [h0, h1, hrow]

/-- The printed index maps over the grid: the row-blocked windows sit at block t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block of rows is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- What point t writes back is block t of the layer of the arrays the call finds at entry. -/
theorem flushed_eq (c : Dev nD) (t : Fin cfg1.N) :
    (dat1 V c).flushed 5 t = ((cfg1.win 5).blk t).view.read (Elt Ideal)
      (Cert.Sage.combine (V c main_v40) (V c main_v28) (V c main_v41) (V c main_v43) (V c main_v42)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31, e40, e41, e50, e51⟩ := idx_facts t
  funext j
  refine block_entry (V c main_v40) (V c main_v28) (V c main_v41) (V c main_v42) (V c main_v43) _ _ _ _ _
    (fun y => ((cfg1.win 5).blk t).view.emb y) (t.val * 5000) ?_ ?_ ?_ ?_ ?_ ?_ ?_ j
  · intro y
    show win1_5.index t (0 : Fin 2) * 5000 + 1 * (y 0).val = t.val * 5000 + (y 0).val
    rw [e50]; omega
  · intro y
    show win1_5.index t (1 : Fin 2) * 64 + 1 * (y 1).val = (y 1).val
    rw [e51]; omega
  · intro y
    show V c main_v40 (((cfg1.win 0).blk t).view.emb y) = V c main_v40 (((cfg1.win 5).blk t).view.emb y)
    refine congrArg _ (funext fun a => Fin.ext ?_)
    match a with
    | ⟨0, _⟩ => show win1_0.index t (0 : Fin 2) * 5000 + 1 * (y 0).val = win1_5.index t (0 : Fin 2) * 5000 + 1 * (y 0).val; rw [e00, e50]
    | ⟨1, _⟩ => show win1_0.index t (1 : Fin 2) * 64 + 1 * (y 1).val = win1_5.index t (1 : Fin 2) * 64 + 1 * (y 1).val; rw [e01, e51]
  · intro y
    show V c main_v28 (((cfg1.win 1).blk t).view.emb y) = V c main_v28 (((cfg1.win 5).blk t).view.emb y)
    refine congrArg _ (funext fun a => Fin.ext ?_)
    match a with
    | ⟨0, _⟩ => show win1_1.index t (0 : Fin 2) * 5000 + 1 * (y 0).val = win1_5.index t (0 : Fin 2) * 5000 + 1 * (y 0).val; rw [e10, e50]
    | ⟨1, _⟩ => show win1_1.index t (1 : Fin 2) * 64 + 1 * (y 1).val = win1_5.index t (1 : Fin 2) * 64 + 1 * (y 1).val; rw [e11, e51]
  · funext y
    show V c main_v41 (((cfg1.win 2).blk t).view.emb y) = V c main_v41 y
    refine congrArg _ (funext fun a => Fin.ext ?_)
    match a with
    | ⟨0, _⟩ => show win1_2.index t (0 : Fin 2) * 64 + 1 * (y 0).val = (y 0).val; rw [e20]; omega
    | ⟨1, _⟩ => show win1_2.index t (1 : Fin 2) * 64 + 1 * (y 1).val = (y 1).val; rw [e21]; omega
  · funext y
    show V c main_v43 (((cfg1.win 3).blk t).view.emb y) = V c main_v43 y
    refine congrArg _ (funext fun a => Fin.ext ?_)
    match a with
    | ⟨0, _⟩ => show win1_3.index t (0 : Fin 2) * 1 + 1 * (y 0).val = (y 0).val; rw [e30]; omega
    | ⟨1, _⟩ => show win1_3.index t (1 : Fin 2) * 64 + 1 * (y 1).val = (y 1).val; rw [e31]; omega
  · funext y
    show V c main_v42 (((cfg1.win 4).blk t).view.emb y) = V c main_v42 y
    refine congrArg _ (funext fun a => Fin.ext ?_)
    match a with
    | ⟨0, _⟩ => show win1_4.index t (0 : Fin 2) * 64 + 1 * (y 0).val = (y 0).val; rw [e40]; omega
    | ⟨1, _⟩ => show win1_4.index t (1 : Fin 2) * 64 + 1 * (y 1).val = (y 1).val; rw [e41]; omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v44).slice (win1_5.rect t)).set ↔ _
  rw [View.set_slice_whole, Rect.mem_set_unit]
  exact Iff.rfl

/-- The output array when the call returns: the layer of the arrays found at entry. -/
theorem final (c : Dev nD) :
    (dat1 V c).arrAt 5 cfg1.N
      = Cert.Sage.combine (V c main_v40) (V c main_v28) (V c main_v41) (V c main_v43) (V c main_v42) :=
  (dat1 V c).arrAt_eq_of_cover 5 _ (fun t _ => flushed_eq V c t) fun i => by
    have hi0 : (i 0).val < 100000 := (i 0).isLt
    have hi1 : (i 1).val < 64 := (i 1).isLt
    obtain ⟨t, ht⟩ := idx_onto ⟨(i 0).val / 5000, by omega⟩
    have q0 : win1_5.index t (0 : Fin 2) = (i 0).val / 5000 := congrFun ht 0
    have q1 : win1_5.index t (1 : Fin 2) = 0 := congrFun ht 1
    refine ⟨t, flush1_5 t, ?_⟩
    rw [mem_blk]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 64 ≤ (i 1).val ∧ (i 1).val < win1_5.index t (1 : Fin 2) * 64 + 64; omega

end Cert.KernelIdeal.Layer1

end
-- ==== Proof.Chain2.lean ====
/-
  The idealized kernel program, from the second kernel call to the third call's entry: the second call leaves the second
  layer's output in its output array; the next stretch of host operations prepares the third call's operands from it.
-/
import proofs.«160452_j37692632990431_1_alg».proof.Proof.Chain1
import proofs.«160452_j37692632990431_1_alg».proof.Proof.Layer1

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The features after the second layer. -/
def H2 : Feat := layer (src m c) (dst m c) (H1 m c) (m ((c : Thread nD τ).loc main_arg5)) (m ((c : Thread nD τ).loc main_arg6)) (m ((c : Thread nD τ).loc main_arg7))

/-! ## At the second call's exit -/

/-- The second call's output array holds the second layer's output. -/
theorem W4_v44 : W4 m ρ c (Proc.devRef .tc main_v44) = H2 m c := by
  refine (W4_arr m ρ c 5).trans ?_
  rw [Layer1.final (V3 m ρ) c]
  show Cert.Sage.combine (W3 m ρ c (Proc.devRef .tc main_v40)) (W3 m ρ c (Proc.devRef .tc main_v28)) (W3 m ρ c (Proc.devRef .tc main_v41))
    (W3 m ρ c (Proc.devRef .tc main_v43)) (W3 m ρ c (Proc.devRef .tc main_v42)) = _
  rw [W3_v40, W3_v28, W3_v41, W3_v43, W3_v42]
  rfl

theorem W4_v1 : W4 m ρ c (Proc.devRef .tc main_v1) = src m c :=
  (W4_of_ne m ρ c main_v1 (by decide)).trans (W3_v1 m ρ c)

theorem W4_v3 : W4 m ρ c (Proc.devRef .tc main_v3) = dst m c :=
  (W4_of_ne m ρ c main_v3 (by decide)).trans (W3_v3 m ρ c)

theorem W4_v12 : W4 m ρ c (Proc.devRef .tc main_v12) = invDegree (dst m c) :=
  (W4_of_ne m ρ c main_v12 (by decide)).trans (W3_v12 m ρ c)

theorem W4_arg8 : W4 m ρ c (Proc.devRef .tc main_arg8) = (m ((c : Thread nD τ).loc main_arg8)) :=
  (W4_of_ne m ρ c main_arg8 (by decide)).trans (W3_arg8 m ρ c)

theorem W4_arg9 : W4 m ρ c (Proc.devRef .tc main_arg9) = (m ((c : Thread nD τ).loc main_arg9)) :=
  (W4_of_ne m ρ c main_arg9 (by decide)).trans (W3_arg9 m ρ c)

theorem W4_arg10 : W4 m ρ c (Proc.devRef .tc main_arg10) = (m ((c : Thread nD τ).loc main_arg10)) :=
  (W4_of_ne m ρ c main_arg10 (by decide)).trans (W3_arg10 m ρ c)

theorem W4_arg11 : W4 m ρ c (Proc.devRef .tc main_arg11) = (m ((c : Thread nD τ).loc main_arg11)) :=
  (W4_of_ne m ρ c main_arg11 (by decide)).trans (W3_arg11 m ρ c)

theorem W4_arg12 : W4 m ρ c (Proc.devRef .tc main_arg12) = (m ((c : Thread nD τ).loc main_arg12)) :=
  (W4_of_ne m ρ c main_arg12 (by decide)).trans (W3_arg12 m ρ c)

/-! ## After the third stretch of host operations -/

set_option maxHeartbeats 8000000 in
theorem W5_v56 : W5 m ρ c (Proc.devRef .tc main_v56) = scaledSum (src m c) (dst m c) (H2 m c) := by
  show StableHlo.after hostOps2 (W4 m ρ c) (Proc.devRef .tc main_v56) = _
  after_results_simp
  rw [W4_v3, W4_v44, W4_v1, W4_v12]
  rfl

set_option maxHeartbeats 8000000 in
theorem W5_v44 : W5 m ρ c (Proc.devRef .tc main_v44) = H2 m c := by
  show StableHlo.after hostOps2 (W4 m ρ c) (Proc.devRef .tc main_v44) = _
  after_results_simp
  exact W4_v44 m ρ c

set_option maxHeartbeats 8000000 in
theorem W5_v57 : W5 m ρ c (Proc.devRef .tc main_v57) = transpose S64x64 [1, 0] (m ((c : Thread nD τ).loc main_arg8)) transposes_S64x64_S64x64_1_0 := by
  show StableHlo.after hostOps2 (W4 m ρ c) (Proc.devRef .tc main_v57) = _
  after_results_simp
  rw [W4_arg8] <;> rfl

set_option maxHeartbeats 8000000 in
theorem W5_v59 : W5 m ρ c (Proc.devRef .tc main_v59) = shapeCast S1x64 (m ((c : Thread nD τ).loc main_arg9)) shapeCasts_S64_S1x64 := by
  show StableHlo.after hostOps2 (W4 m ρ c) (Proc.devRef .tc main_v59) = _
  after_results_simp
  rw [W4_arg9] <;> rfl

set_option maxHeartbeats 8000000 in
theorem W5_v58 : W5 m ρ c (Proc.devRef .tc main_v58) = transpose S64x64 [1, 0] (m ((c : Thread nD τ).loc main_arg10)) transposes_S64x64_S64x64_1_0 := by
  show StableHlo.after hostOps2 (W4 m ρ c) (Proc.devRef .tc main_v58) = _
  after_results_simp
  rw [W4_arg10] <;> rfl

set_option maxHeartbeats 8000000 in
theorem W5_arg11 : W5 m ρ c (Proc.devRef .tc main_arg11) = (m ((c : Thread nD τ).loc main_arg11)) := by
  show StableHlo.after hostOps2 (W4 m ρ c) (Proc.devRef .tc main_arg11) = _
  after_results_simp
  exact W4_arg11 m ρ c

set_option maxHeartbeats 8000000 in
theorem W5_arg12 : W5 m ρ c (Proc.devRef .tc main_arg12) = (m ((c : Thread nD τ).loc main_arg12)) := by
  show StableHlo.after hostOps2 (W4 m ρ c) (Proc.devRef .tc main_arg12) = _
  after_results_simp
  exact W4_arg12 m ρ c

end Cert.KernelIdeal.Chain

end
-- ==== Proof.Layer2.lean ====
/-
  Kernel call 2 of the idealized program: what its output array holds when the call returns, as one function of the
  arrays it finds at entry.

  The call walks 20 grid points.  Point t stages rows [5000·t, 5000·t + 5000) of the array of neighbourhood means and of
  the array of node features, and the two weight matrices and the bias row whole; its body stores one block, whose entry
  (p, q) is the layer's entry for row p of the staged rows (the body's arithmetic is the vector unit's spelling of a layer);
  the block is written back to rows [5000·t, 5000·t + 5000) of the output.  A layer's entry reads its own row only, so that
  block is the block of the layer applied to the whole arrays, and the 20 blocks tile the output: the output array ends
  holding the layer of the whole arrays.
-/
import proofs.«160452_j37692632990431_1_alg».proof.Proof.Gen.KernelIdeal.Frame
import proofs.«160452_j37692632990431_1_alg».proof.Proof.SageSpec

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem dot_plain : dot_S5000x64_S64x64_S5000x64_1_0_0_1_n_n = DotDims.plain 5000 64 64 := rfl

/-- The body's stored value at entry (p, q): the layer's entry for row p of the staged blocks. -/
theorem payload_entry (x0 x1 : Vec Ideal S5000x64 .f32) (x2 x4 : Vec Ideal S64x64 .f32) (x3 : Vec Ideal S1x64 .f32)
    (p : Fin 5000) (q : Fin 64) :
    k2_pay1 x0 x1 x2 x4 x3 (ix2 p q)
      = Cert.Sage.combineRow (fun k => x0 (ix2 p k)) (fun k => x1 (ix2 p k)) x2 x4 x3 q := by
  unfold k2_pay1
  simp only [shapeCast_self]
  exact Cert.Sage.combine_body_apply _ dot_plain x0 x1 x2 x4 x3 _ _ p q

/-- A block of rows, offset `o`, of the layer of whole arrays: when the staged blocks are the rows `o + ·` of the arrays of
    means and of features, and the weights and the bias are staged whole, the body's stored block is the layer of the whole
    arrays read at those rows. -/
theorem block_entry (A0 A1 : S100000x64.Idx → EReal) (A2 A4 : S64x64.Idx → EReal) (A3 : S1x64.Idx → EReal)
    (x0 x1 : Vec Ideal S5000x64 .f32) (x2 x4 : Vec Ideal S64x64 .f32) (x3 : Vec Ideal S1x64 .f32)
    (e : S5000x64.Idx → S100000x64.Idx) (o : ℕ)
    (he0 : ∀ y, ((e y) 0).val = o + (y 0).val) (he1 : ∀ y, ((e y) 1).val = (y 1).val)
    (h0 : ∀ y, x0 y = A0 (e y)) (h1 : ∀ y, x1 y = A1 (e y)) (h2 : x2 = A2) (h3 : x3 = A3) (h4 : x4 = A4)
    (j : S5000x64.Idx) :
    k2_pay1 (F := Ideal) x0 x1 x2 x4 x3 j = Cert.Sage.combine A0 A1 A2 A3 A4 (e j) := by
  subst h2 h3 h4
  obtain ⟨p, q, rfl⟩ : ∃ (p : Fin 5000) (q : Fin 64), j = ix2 p q := ⟨j 0, j 1, eq_ix2 j⟩
  obtain ⟨r, hr⟩ : ∃ r : Fin 100000, r.val = o + p.val := ⟨⟨((e (ix2 p q)) 0).val, ((e (ix2 p q)) 0).isLt⟩, he0 (ix2 p q)⟩
  have hrow : ∀ k : Fin 64, e (ix2 p k) = ix2 r k := fun k => funext fun a => Fin.ext (by
    match a with
    | ⟨0, _⟩ => show ((e (ix2 p k)) 0).val = r.val; rw [hr]; exact he0 (ix2 p k)
    | ⟨1, _⟩ => exact he1 (ix2 p k))
  refine (payload_entry x0 x1 x2 x4 x3 p q).trans ?_
  rw [hrow q, Cert.Sage.combine_ix2]
  simp only [h0, h1, hrow]

/-- The printed index maps over the grid: the row-blocked windows sit at block t, the others at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block of rows is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- What point t writes back is block t of the layer of the arrays the call finds at entry. -/
theorem flushed_eq (c : Dev nD) (t : Fin cfg2.N) :
    (dat2 V c).flushed 5 t = ((cfg2.win 5).blk t).view.read (Elt Ideal)
      (Cert.Sage.combine (V c main_v56) (V c main_v44) (V c main_v57) (V c main_v59) (V c main_v58)) := by
  show (cfg2.win 5).cut (grid2.coords t) ((dat2 V c).after 5 t) = _
  rw [after2_5]
  unfold out2_5
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31, e40, e41, e50, e51⟩ := idx_facts t
  funext j
  refine block_entry (V c main_v56) (V c main_v44) (V c main_v57) (V c main_v58) (V c main_v59) _ _ _ _ _
    (fun y => ((cfg2.win 5).blk t).view.emb y) (t.val * 5000) ?_ ?_ ?_ ?_ ?_ ?_ ?_ j
  · intro y
    show win2_5.index t (0 : Fin 2) * 5000 + 1 * (y 0).val = t.val * 5000 + (y 0).val
    rw [e50]; omega
  · intro y
    show win2_5.index t (1 : Fin 2) * 64 + 1 * (y 1).val = (y 1).val
    rw [e51]; omega
  · intro y
    show V c main_v56 (((cfg2.win 0).blk t).view.emb y) = V c main_v56 (((cfg2.win 5).blk t).view.emb y)
    refine congrArg _ (funext fun a => Fin.ext ?_)
    match a with
    | ⟨0, _⟩ => show win2_0.index t (0 : Fin 2) * 5000 + 1 * (y 0).val = win2_5.index t (0 : Fin 2) * 5000 + 1 * (y 0).val; rw [e00, e50]
    | ⟨1, _⟩ => show win2_0.index t (1 : Fin 2) * 64 + 1 * (y 1).val = win2_5.index t (1 : Fin 2) * 64 + 1 * (y 1).val; rw [e01, e51]
  · intro y
    show V c main_v44 (((cfg2.win 1).blk t).view.emb y) = V c main_v44 (((cfg2.win 5).blk t).view.emb y)
    refine congrArg _ (funext fun a => Fin.ext ?_)
    match a with
    | ⟨0, _⟩ => show win2_1.index t (0 : Fin 2) * 5000 + 1 * (y 0).val = win2_5.index t (0 : Fin 2) * 5000 + 1 * (y 0).val; rw [e10, e50]
    | ⟨1, _⟩ => show win2_1.index t (1 : Fin 2) * 64 + 1 * (y 1).val = win2_5.index t (1 : Fin 2) * 64 + 1 * (y 1).val; rw [e11, e51]
  · funext y
    show V c main_v57 (((cfg2.win 2).blk t).view.emb y) = V c main_v57 y
    refine congrArg _ (funext fun a => Fin.ext ?_)
    match a with
    | ⟨0, _⟩ => show win2_2.index t (0 : Fin 2) * 64 + 1 * (y 0).val = (y 0).val; rw [e20]; omega
    | ⟨1, _⟩ => show win2_2.index t (1 : Fin 2) * 64 + 1 * (y 1).val = (y 1).val; rw [e21]; omega
  · funext y
    show V c main_v59 (((cfg2.win 3).blk t).view.emb y) = V c main_v59 y
    refine congrArg _ (funext fun a => Fin.ext ?_)
    match a with
    | ⟨0, _⟩ => show win2_3.index t (0 : Fin 2) * 1 + 1 * (y 0).val = (y 0).val; rw [e30]; omega
    | ⟨1, _⟩ => show win2_3.index t (1 : Fin 2) * 64 + 1 * (y 1).val = (y 1).val; rw [e31]; omega
  · funext y
    show V c main_v58 (((cfg2.win 4).blk t).view.emb y) = V c main_v58 y
    refine congrArg _ (funext fun a => Fin.ext ?_)
    match a with
    | ⟨0, _⟩ => show win2_4.index t (0 : Fin 2) * 64 + 1 * (y 0).val = (y 0).val; rw [e40]; omega
    | ⟨1, _⟩ => show win2_4.index t (1 : Fin 2) * 64 + 1 * (y 1).val = (y 1).val; rw [e41]; omega

/-- An index of the output array is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v60).slice (win2_5.rect t)).set ↔ _
  rw [View.set_slice_whole, Rect.mem_set_unit]
  exact Iff.rfl

/-- The output array when the call returns: the layer of the arrays found at entry. -/
theorem final (c : Dev nD) :
    (dat2 V c).arrAt 5 cfg2.N
      = Cert.Sage.combine (V c main_v56) (V c main_v44) (V c main_v57) (V c main_v59) (V c main_v58) :=
  (dat2 V c).arrAt_eq_of_cover 5 _ (fun t _ => flushed_eq V c t) fun i => by
    have hi0 : (i 0).val < 100000 := (i 0).isLt
    have hi1 : (i 1).val < 64 := (i 1).isLt
    obtain ⟨t, ht⟩ := idx_onto ⟨(i 0).val / 5000, by omega⟩
    have q0 : win2_5.index t (0 : Fin 2) = (i 0).val / 5000 := congrFun ht 0
    have q1 : win2_5.index t (1 : Fin 2) = 0 := congrFun ht 1
    refine ⟨t, flush2_5 t, ?_⟩
    rw [mem_blk]
    intro a
    match a with
    | ⟨0, _⟩ => show win2_5.index t (0 : Fin 2) * 5000 ≤ (i 0).val ∧ (i 0).val < win2_5.index t (0 : Fin 2) * 5000 + 5000; omega
    | ⟨1, _⟩ => show win2_5.index t (1 : Fin 2) * 64 ≤ (i 1).val ∧ (i 1).val < win2_5.index t (1 : Fin 2) * 64 + 64; omega

end Cert.KernelIdeal.Layer2

end
-- ==== Proof.Layer3.lean ====
/-
  The last kernel call of the idealized program: what its output array holds when the call returns, as one function of
  the arrays it finds at entry.

  The call walks 20 grid points.  Point t stages rows [5000·t, 5000·t + 5000) of the array of node features, and the weight
  matrix and the bias row whole; its body stores one block, whose entry (p, q) is the projection's entry for row p of the
  staged rows (one matrix product into a zero accumulator plus the bias row repeated down the rows); the block is written
  back to rows [5000·t, 5000·t + 5000) of the output.  The projection's entry reads its own row only and the 20 blocks tile
  the output: the output array ends holding the projection of the whole arrays.
-/
import proofs.«160452_j37692632990431_1_alg».proof.Proof.Gen.KernelIdeal.Frame
import proofs.«160452_j37692632990431_1_alg».proof.Proof.SageSpec

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem dot_plain : dot_S5000x64_S64x8_S5000x8_1_0_0_1_n_n = DotDims.plain 5000 64 8 := rfl

/-- The body's stored value at entry (p, q): the projection's entry for row p of the staged block. -/
theorem payload_entry (x0 : Vec Ideal S5000x64 .f32) (x1 : Vec Ideal S64x8 .f32) (x2 : Vec Ideal S1x8 .f32)
    (p : Fin 5000) (q : Fin 8) :
    k3_pay1 x0 x1 x2 (ix2 p q) = Cert.Sage.projectRow (fun k => x0 (ix2 p k)) x1 x2 q := by
  unfold k3_pay1
  simp only [shapeCast_self]
  exact Cert.Sage.project_body_apply _ dot_plain x0 x1 x2 _ _ p q

/-- A block of rows, offset `o`, of the projection of whole arrays. -/
theorem block_entry (A0 : S100000x64.Idx → EReal) (A1 : S64x8.Idx → EReal) (A2 : S1x8.Idx → EReal)
    (x0 : Vec Ideal S5000x64 .f32) (x1 : Vec Ideal S64x8 .f32) (x2 : Vec Ideal S1x8 .f32)
    (e : S5000x64.Idx → S100000x64.Idx) (eo : S5000x8.Idx → S100000x8.Idx) (o : ℕ)
    (he0 : ∀ y, ((e y) 0).val = o + (y 0).val) (he1 : ∀ y, ((e y) 1).val = (y 1).val)
    (ho0 : ∀ y, ((eo y) 0).val = o + (y 0).val) (ho1 : ∀ y, ((eo y) 1).val = (y 1).val)
    (h0 : ∀ y, x0 y = A0 (e y)) (h1 : x1 = A1) (h2 : x2 = A2)
    (j : S5000x8.Idx) :
    k3_pay1 (F := Ideal) x0 x1 x2 j = Cert.Sage.project A0 A1 A2 (eo j) := by
  subst h1 h2
  obtain ⟨p, q, rfl⟩ : ∃ (p : Fin 5000) (q : Fin 8), j = ix2 p q := ⟨j 0, j 1, eq_ix2 j⟩
  obtain ⟨r, hr⟩ : ∃ r : Fin 100000, r.val = o + p.val := ⟨⟨((eo (ix2 p q)) 0).val, ((eo (ix2 p q)) 0).isLt⟩, ho0 (ix2 p q)⟩
  have hrow : ∀ k : Fin 64, e (ix2 p k) = ix2 r k := fun k => funext fun a => Fin.ext (by
    match a with
    | ⟨0, _⟩ => show ((e (ix2 p k)) 0).val = r.val; rw [hr]; exact he0 (ix2 p k)
    | ⟨1, _⟩ => exact he1 (ix2 p k))
  have hout : eo (ix2 p q) = ix2 r q := funext fun a => Fin.ext (by
    match a with
    | ⟨0, _⟩ => show ((eo (ix2 p q)) 0).val = r.val; rw [hr]; exact ho0 (ix2 p q)
    | ⟨1, _⟩ => exact ho1 (ix2 p q))
  refine (payload_entry x0 x1 x2 p q).trans ?_
  rw [hout, Cert.Sage.project_ix2]
  simp only [h0, hrow]

/-- The printed index maps over the grid: the row-blocked windows sit at block t, the others at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every block of rows is some point's. -/
theorem idx_onto : ∀ q0 : Fin 20, ∃ t : Fin cfg3.N, win3_3.index t = ![q0.val, 0] :=
  (by decide +kernel : ∀ q0 : Fin 20, ∃ t : Fin grid3.N, win3_3.index t = ![q0.val, 0])

/-- What point t writes back is block t of the projection of the arrays the call finds at entry. -/
theorem flushed_eq (c : Dev nD) (t : Fin cfg3.N) :
    (dat3 V c).flushed 3 t = ((cfg3.win 3).blk t).view.read (Elt Ideal)
      (Cert.Sage.project (V c main_v60) (V c main_v61) (V c main_v62)) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S64x8) zero_offsets,
    View.ld_unit_zero (S := S1x8) zero_offsets]
  obtain ⟨e00, e01, e10, e11, e20, e21, e30, e31⟩ := idx_facts t
  funext j
  refine block_entry (V c main_v60) (V c main_v61) (V c main_v62) _ _ _
    (fun y => ((cfg3.win 0).blk t).view.emb y) (fun y => ((cfg3.win 3).blk t).view.emb y) (t.val * 5000) ?_ ?_ ?_ ?_ ?_ ?_ ?_ j
  · intro y
    show win3_0.index t (0 : Fin 2) * 5000 + 1 * (y 0).val = t.val * 5000 + (y 0).val
    rw [e00]; omega
  · intro y
    show win3_0.index t (1 : Fin 2) * 64 + 1 * (y 1).val = (y 1).val
    rw [e01]; omega
  · intro y
    show win3_3.index t (0 : Fin 2) * 5000 + 1 * (y 0).val = t.val * 5000 + (y 0).val
    rw [e30]; omega
  · intro y
    show win3_3.index t (1 : Fin 2) * 8 + 1 * (y 1).val = (y 1).val
    rw [e31]; omega
  · intro y
    rfl
  · funext y
    show V c main_v61 (((cfg3.win 1).blk t).view.emb y) = V c main_v61 y
    refine congrArg _ (funext fun a => Fin.ext ?_)
    match a with
    | ⟨0, _⟩ => show win3_1.index t (0 : Fin 2) * 64 + 1 * (y 0).val = (y 0).val; rw [e10]; omega
    | ⟨1, _⟩ => show win3_1.index t (1 : Fin 2) * 8 + 1 * (y 1).val = (y 1).val; rw [e11]; omega
  · funext y
    show V c main_v62 (((cfg3.win 2).blk t).view.emb y) = V c main_v62 y
    refine congrArg _ (funext fun a => Fin.ext ?_)
    match a with
    | ⟨0, _⟩ => show win3_2.index t (0 : Fin 2) * 1 + 1 * (y 0).val = (y 0).val; rw [e20]; omega
    | ⟨1, _⟩ => show win3_2.index t (1 : Fin 2) * 8 + 1 * (y 1).val = (y 1).val; rw [e21]; omega

/-- An index of the output array is in point t's block iff each coordinate is in the block's range on its axis. -/
theorem mem_blk (t : Fin cfg3.N) (i : S100000x8.Idx) :
    i ∈ ((cfg3.win 3).blk t).view.set ↔ ∀ a : Fin 2, win3_3.index t a * S5000x8.size a ≤ (i a).val
      ∧ (i a).val < win3_3.index t a * S5000x8.size a + S5000x8.size a := by
  show i ∈ ((View.whole main_v63).slice (win3_3.rect t)).set ↔ _
  rw [View.set_slice_whole, Rect.mem_set_unit]
  exact Iff.rfl

/-- The output array when the call returns: the projection of the arrays found at entry. -/
theorem final (c : Dev nD) :
    (dat3 V c).arrAt 3 cfg3.N = Cert.Sage.project (V c main_v60) (V c main_v61) (V c main_v62) :=
  (dat3 V c).arrAt_eq_of_cover 3 _ (fun t _ => flushed_eq V c t) fun i => by
    have hi0 : (i 0).val < 100000 := (i 0).isLt
    have hi1 : (i 1).val < 8 := (i 1).isLt
    obtain ⟨t, ht⟩ := idx_onto ⟨(i 0).val / 5000, by omega⟩
    have q0 : win3_3.index t (0 : Fin 2) = (i 0).val / 5000 := congrFun ht 0
    have q1 : win3_3.index t (1 : Fin 2) = 0 := congrFun ht 1
    refine ⟨t, flush3_3 t, ?_⟩
    rw [mem_blk]
    intro a
    match a with
    | ⟨0, _⟩ => show win3_3.index t (0 : Fin 2) * 5000 ≤ (i 0).val ∧ (i 0).val < win3_3.index t (0 : Fin 2) * 5000 + 5000; omega
    | ⟨1, _⟩ => show win3_3.index t (1 : Fin 2) * 8 ≤ (i 1).val ∧ (i 1).val < win3_3.index t (1 : Fin 2) * 8 + 8; omega

end Cert.KernelIdeal.Layer3

end
-- ==== Proof.KernelRun.lean ====
/-
  The idealized kernel program's run, with its result named.

  @main is nine segments: five stretches of host operations and, between them, four pipelined kernel calls.  The contents
  of the TensorCore's buffers at the nine boundaries are a fold from the launch memory: a stretch applies its operations,
  a call replaces its output array by what its grid points write back and leaves every other buffer alone.  Every weakly
  fair execution terminates without a fault in a state whose unscoped buffers hold the fold's last stage; read at the
  result's buffer this is the value the later modules compute, and read at an argument's buffer it is the launch contents.
-/
import proofs.«160452_j37692632990431_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the argument
    arrays as launched. -/
theorem run_result : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Run

end
-- ==== Proof.Chain3.lean ====
/-
  The idealized kernel program, from the third kernel call to the return: the third call leaves the third layer's output
  in its output array, the last call the projection of it, and the last host operation drops the last node's row.  With the
  run of the nine segments this gives the program's run with its result named: the composition of three layers, the
  projection and the slice, of the launch memory's argument arrays.
-/
import proofs.«160452_j37692632990431_1_alg».proof.Proof.Chain2
import proofs.«160452_j37692632990431_1_alg».proof.Proof.Layer2
import proofs.«160452_j37692632990431_1_alg».proof.Proof.Layer3
import proofs.«160452_j37692632990431_1_alg».proof.Proof.KernelRun

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The features after the third layer. -/
def H3 : Feat := layer (src m c) (dst m c) (H2 m c) (m ((c : Thread nD τ).loc main_arg8)) (m ((c : Thread nD τ).loc main_arg9)) (m ((c : Thread nD τ).loc main_arg10))

/-- The program's result: the projection of the third layer's output, the last node's row dropped. -/
def result : FVec Ideal S99999x8 .f32 :=
  extractStridedSlice S99999x8 ![0, 0] (Cert.Sage.project (H3 m c) (transpose S64x8 [1, 0] (m ((c : Thread nD τ).loc main_arg11)) transposes_S8x64_S64x8_1_0) (shapeCast S1x8 (m ((c : Thread nD τ).loc main_arg12)) shapeCasts_S8_S1x8)) slices_S100000x8_S99999x8_0_0

/-! ## At the third call's exit -/

/-- The third call's output array holds the third layer's output. -/
theorem W6_v60 : W6 m ρ c (Proc.devRef .tc main_v60) = H3 m c := by
  refine (W6_arr m ρ c 5).trans ?_
  rw [Layer2.final (V5 m ρ) c]
  show Cert.Sage.combine (W5 m ρ c (Proc.devRef .tc main_v56)) (W5 m ρ c (Proc.devRef .tc main_v44)) (W5 m ρ c (Proc.devRef .tc main_v57))
    (W5 m ρ c (Proc.devRef .tc main_v59)) (W5 m ρ c (Proc.devRef .tc main_v58)) = _
  rw [W5_v56, W5_v44, W5_v57, W5_v59, W5_v58]
  rfl

theorem W6_arg11 : W6 m ρ c (Proc.devRef .tc main_arg11) = (m ((c : Thread nD τ).loc main_arg11)) :=
  (W6_of_ne m ρ c main_arg11 (by decide)).trans (W5_arg11 m ρ c)

theorem W6_arg12 : W6 m ρ c (Proc.devRef .tc main_arg12) = (m ((c : Thread nD τ).loc main_arg12)) :=
  (W6_of_ne m ρ c main_arg12 (by decide)).trans (W5_arg12 m ρ c)

/-! ## After the fourth stretch of host operations, the last call, and the last host operation -/

set_option maxHeartbeats 8000000 in
theorem W7_v60 : W7 m ρ c (Proc.devRef .tc main_v60) = H3 m c := by
  show StableHlo.after hostOps3 (W6 m ρ c) (Proc.devRef .tc main_v60) = _
  after_results_simp
  exact W6_v60 m ρ c

set_option maxHeartbeats 8000000 in
theorem W7_v61 : W7 m ρ c (Proc.devRef .tc main_v61) = transpose S64x8 [1, 0] (m ((c : Thread nD τ).loc main_arg11)) transposes_S8x64_S64x8_1_0 := by
  show StableHlo.after hostOps3 (W6 m ρ c) (Proc.devRef .tc main_v61) = _
  after_results_simp
  rw [W6_arg11] <;> rfl

set_option maxHeartbeats 8000000 in
theorem W7_v62 : W7 m ρ c (Proc.devRef .tc main_v62) = shapeCast S1x8 (m ((c : Thread nD τ).loc main_arg12)) shapeCasts_S8_S1x8 := by
  show StableHlo.after hostOps3 (W6 m ρ c) (Proc.devRef .tc main_v62) = _
  after_results_simp
  rw [W6_arg12] <;> rfl

/-- The last call's output array holds the projection of the third layer's output. -/
theorem W8_v63 : W8 m ρ c (Proc.devRef .tc main_v63)
    = Cert.Sage.project (H3 m c) (transpose S64x8 [1, 0] (m ((c : Thread nD τ).loc main_arg11)) transposes_S8x64_S64x8_1_0) (shapeCast S1x8 (m ((c : Thread nD τ).loc main_arg12)) shapeCasts_S8_S1x8) := by
  refine (W8_arr m ρ c 3).trans ?_
  rw [Layer3.final (V7 m ρ) c]
  show Cert.Sage.project (W7 m ρ c (Proc.devRef .tc main_v60)) (W7 m ρ c (Proc.devRef .tc main_v61)) (W7 m ρ c (Proc.devRef .tc main_v62)) = _
  rw [W7_v60, W7_v61, W7_v62]

/-- The result buffer at the return. -/
theorem W9_v64 : W9 m ρ c (Proc.devRef .tc main_v64) = result m c := by
  show StableHlo.after hostOps4 (W8 m ρ c) (Proc.devRef .tc main_v64) = _
  after_results_simp
  rw [W8_v63]
  rfl

/-- The idealized kernel program's run: every weakly fair execution terminates without a fault, the result buffer at
    `result` of the launch memory and the argument arrays as launched. -/
theorem run : θ_run (defs (F := Ideal)) (onTc (τ := τ) (main (F := Ideal))) ⟨m, fun _ => 0, ρ⟩ (fun r => ∀ c : Dev nD,
      r.2.mem ((c.tc : Thread nD τ).loc main_v64) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c => ⟨(h c).1.trans (W9_v64 m ρ c), (h c).2⟩) (Cert.KernelIdeal.Run.run_result m ρ)

end Cert.KernelIdeal.Chain

end
-- ==== Proof.RefValue.lean ====
/-
  The idealized reference's result, named.

  The reference takes from the edge list the source node of every edge (a negative index wrapped around by the node count)
  and the target node of every edge.  One layer gathers the source rows of the features, adds them up per target node,
  divides every node's sum by its in-degree floored at one, and returns
  max(mean · Wlᵀ + bl + h · Wrᵀ, 0); three layers and one last product with Woᵀ plus bo follow each other, and the last
  node's row is dropped.  This module names these terms and checks that the reference's run ends at their composition.
-/
import proofs.«160452_j37692632990431_1_alg».proof.Proof.Gen.ReferenceIdeal.Run
import Idealize.ShloMosaic.PureOps.Ideal

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo

abbrev Edges := (⟨S2x1600000, .i32⟩ : BufTy).Contents (Elt Ideal)
abbrev EdgeVec := (⟨S1600000, .i32⟩ : BufTy).Contents (Elt Ideal)
abbrev Feat := FVec Ideal S100000x64 .f32
abbrev Weight := FVec Ideal S64x64 .f32
abbrev Bias := FVec Ideal S64 .f32

/-- Row 0 of the edge list: every edge's source node. -/
def srcVec (ei : Edges) : EdgeVec :=
  shapeCast S1600000 (extractStridedSlice S1x1600000 ![0, 0] ei slices_S2x1600000_S1x1600000_0_0) shapeCasts_S1x1600000_S1600000

/-- Row 1 of the edge list: every edge's target node. -/
def dstVec (ei : Edges) : EdgeVec :=
  shapeCast S1600000 (extractStridedSlice S1x1600000 ![1, 0] ei slices_S2x1600000_S1x1600000_1_0) shapeCasts_S1x1600000_S1600000

/-- The sources as a column of gather starts, a negative one wrapped around by the node count. -/
def srcCol (s : EdgeVec) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per target node, the sum of the source rows of the features over its incoming edges. -/
def neighbourSum (s d : EdgeVec) (h : Feat) : Feat :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h (srcCol s))

/-- Per node, the number of incoming edges (a sum of ones). -/
def inDegree (d : EdgeVec) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The neighbourhood mean as the reference spells it: the sums divided by the in-degree floored at one. -/
def meanOf (s d : EdgeVec) (h : Feat) : Feat :=
  Host.divf (F := Ideal) (neighbourSum s d h)
    (broadcastInDim S100000x64 ![0, 1] bcast_S100000x1_S100000x64_0_1
      (broadcastInDim S100000x1 ![0] bcast_S100000_S100000x1_0
        (maximumf (F := Ideal) (inDegree d) (broadcastInDim S100000 ![] bcast_S_S100000 (constant (F := Ideal) S_ .f32 0x3F800000#32)))))

/-- One layer as the reference spells it. -/
def layer (s d : EdgeVec) (h : Feat) (wl : Weight) (bl : Bias) (wr : Weight) : Feat :=
  maximumf (F := Ideal)
    (addf (F := Ideal)
      (addf (F := Ideal) (Host.dotGeneral (F := Ideal) dot_S100000x64_S64x64_S100000x64_1_0_0_1_n_n none (meanOf s d h)
          (transpose S64x64 [1, 0] wl transposes_S64x64_S64x64_1_0))
        (broadcastInDim S100000x64 ![0, 1] bcast_S1x64_S100000x64_0_1 (broadcastInDim S1x64 ![1] bcast_S64_S1x64_1 bl)))
      (Host.dotGeneral (F := Ideal) dot_S100000x64_S64x64_S100000x64_1_0_0_1_n_n none h
        (transpose S64x64 [1, 0] wr transposes_S64x64_S64x64_1_0)))
    (broadcastInDim S100000x64 ![] bcast_S_S100000x64 (constant (F := Ideal) S_ .f32 0x00000000#32))

/-- The last product, with the last node's row dropped. -/
def output (h : Feat) (wo : FVec Ideal S8x64 .f32) (bo : FVec Ideal S8 .f32) : FVec Ideal S99999x8 .f32 :=
  extractStridedSlice S99999x8 ![0, 0]
    (addf (F := Ideal) (Host.dotGeneral (F := Ideal) dot_S100000x64_S64x8_S100000x8_1_0_0_1_n_n none h (transpose S64x8 [1, 0] wo transposes_S8x64_S64x8_1_0))
      (broadcastInDim S100000x8 ![0, 1] bcast_S1x8_S100000x8_0_1 (broadcastInDim S1x8 ![1] bcast_S8_S1x8_1 bo)))
    slices_S100000x8_S99999x8_0_0

variable (m : (ℓ : Loc nD τ sig) → Buf (Elt Ideal) ℓ) (c : Dev nD)

abbrev src : EdgeVec := srcVec (m ((c.tc : Thread nD τ).loc main_arg1))
abbrev dst : EdgeVec := dstVec (m ((c.tc : Thread nD τ).loc main_arg1))

/-- The features after one, two and three layers. -/
def H1 : Feat := layer (src m c) (dst m c) (m ((c.tc : Thread nD τ).loc main_arg0)) (m ((c.tc : Thread nD τ).loc main_arg2))
  (m ((c.tc : Thread nD τ).loc main_arg3)) (m ((c.tc : Thread nD τ).loc main_arg4))
def H2 : Feat := layer (src m c) (dst m c) (H1 m c) (m ((c.tc : Thread nD τ).loc main_arg5))
  (m ((c.tc : Thread nD τ).loc main_arg6)) (m ((c.tc : Thread nD τ).loc main_arg7))
def H3 : Feat := layer (src m c) (dst m c) (H2 m c) (m ((c.tc : Thread nD τ).loc main_arg8))
  (m ((c.tc : Thread nD τ).loc main_arg9)) (m ((c.tc : Thread nD τ).loc main_arg10))

set_option maxHeartbeats 4000000 in
/-- The reference's run ends at the composition of the three layers and the last product. -/
theorem result_eq : Cert.ReferenceIdeal.Value.res_main_v93 (F := Ideal) m c
    = output (H3 m c) (m ((c.tc : Thread nD τ).loc main_arg11)) (m ((c.tc : Thread nD τ).loc main_arg12)) := by
  unfold Cert.ReferenceIdeal.Value.res_main_v93
  rfl

end Cert.ReferenceIdeal.RefValue

end
-- ==== Proof.Bridge.lean ====
/-
  The two programs compute one function.

  Both take the same source and target vectors from the edge list, the same per-node sums of gathered rows and the same
  in-degrees (the same host operations of the same operands).  They differ in two places only:
  * the kernel program scales a node's sum by the reciprocal `1 / max(cnt, 1)` where the reference divides by
    `max(cnt, 1)`; the divisor is at least one, and off zero a quotient of extended reals is the product with the inverse,
    so the two means are one array;
  * the kernel program adds the bias after both matrix products, the reference between them: addition of extended reals is
    commutative and associative.
  The matrix products themselves (a vector unit's product of blocks of rows into a zero accumulator, the host's
  `dot_general` of the whole arrays) are the same sums of the same products, entry by entry.  So a layer of the one is a
  layer of the other, three layers of the one are three layers of the other, and so are the projection and the slice.
-/
import proofs.«160452_j37692632990431_1_alg».proof.Proof.Chain0
import proofs.«160452_j37692632990431_1_alg».proof.Proof.RefValue
import proofs.«160452_j37692632990431_1_alg».proof.Proof.SageSpec

set_option maxRecDepth 16384

noncomputable section

namespace Cert.Bridge

open Idealize.ShloMosaic Idealize.ShloMosaic.ValueIdx
open Cert.KernelIdeal (S100000x64 S64x64 S64 S8x64 S8 S64x8 S1x8 S1x64 S99999x8 S100000x8)

abbrev K.EdgeVec := Cert.KernelIdeal.Chain.EdgeVec
abbrev K.Feat := Cert.KernelIdeal.Chain.Feat

theorem srcVec_eq (ei : Cert.KernelIdeal.Chain.Edges) :
    Cert.KernelIdeal.Chain.srcVec ei = Cert.ReferenceIdeal.RefValue.srcVec ei := rfl

theorem dstVec_eq (ei : Cert.KernelIdeal.Chain.Edges) :
    Cert.KernelIdeal.Chain.dstVec ei = Cert.ReferenceIdeal.RefValue.dstVec ei := rfl

/-- The same gather and scatter-add of the same operands. -/
theorem neighbourSum_eq (s d : K.EdgeVec) (h : K.Feat) :
    Cert.KernelIdeal.Chain.neighbourSum s d h = Cert.ReferenceIdeal.RefValue.neighbourSum s d h := rfl

/-- The same scatter-add of ones. -/
theorem inDegree_eq (d : K.EdgeVec) :
    Cert.KernelIdeal.Chain.inDegree d = Cert.ReferenceIdeal.RefValue.inDegree d := rfl

/-- The sums scaled by the reciprocal degree are the sums divided by the degree. -/
theorem mean_eq (s d : K.EdgeVec) (h : K.Feat) :
    Cert.KernelIdeal.Chain.scaledSum s d h = Cert.ReferenceIdeal.RefValue.meanOf s d h := by
  unfold Cert.KernelIdeal.Chain.scaledSum Cert.KernelIdeal.Chain.invDegree Cert.ReferenceIdeal.RefValue.meanOf
  rw [neighbourSum_eq, inDegree_eq]
  exact Cert.Sage.mean_scale_eq (N := 100000) (C := 64) _ _ _ _ _

/-- One layer of the kernel program is one layer of the reference. -/
theorem layer_eq (s d : K.EdgeVec) (h : K.Feat) (wl : FVec Ideal S64x64 .f32) (bl : FVec Ideal S64 .f32) (wr : FVec Ideal S64x64 .f32) :
    Cert.KernelIdeal.Chain.layer s d h wl bl wr = Cert.ReferenceIdeal.RefValue.layer s d h wl bl wr := by
  unfold Cert.KernelIdeal.Chain.layer Cert.ReferenceIdeal.RefValue.layer
  rw [mean_eq]
  funext i
  obtain ⟨p, q, rfl⟩ : ∃ (p : Fin 100000) (q : Fin 64), i = ix2 p q := ⟨i 0, i 1, eq_ix2 i⟩
  refine (Cert.Sage.combine_ix2 _ _ _ _ _ p q).trans ?_
  exact (Cert.Sage.host_combine_apply (R := 100000) (I := 64) (H := 64) _ rfl _ _ _ _ bl _ _ _ _ p q).symm

/-- The projection and the slice of the kernel program are the reference's last product and slice. -/
theorem output_eq (h : K.Feat) (wo : FVec Ideal S8x64 .f32) (bo : FVec Ideal S8 .f32) :
    extractStridedSlice S99999x8 ![0, 0]
        (Cert.Sage.project h (transpose S64x8 [1, 0] wo Cert.KernelIdeal.Gen.transposes_S8x64_S64x8_1_0)
          (shapeCast S1x8 bo Cert.KernelIdeal.Gen.shapeCasts_S8_S1x8))
        Cert.KernelIdeal.Gen.slices_S100000x8_S99999x8_0_0
      = Cert.ReferenceIdeal.RefValue.output h wo bo := by
  unfold Cert.ReferenceIdeal.RefValue.output
  refine congrArg (fun z : FVec Ideal S100000x8 .f32 => extractStridedSlice S99999x8 ![0, 0] z Cert.KernelIdeal.Gen.slices_S100000x8_S99999x8_0_0) ?_
  funext i
  obtain ⟨p, q, rfl⟩ : ∃ (p : Fin 100000) (q : Fin 8), i = ix2 p q := ⟨i 0, i 1, eq_ix2 i⟩
  refine (Cert.Sage.project_ix2 _ _ _ p q).trans ?_
  exact (Cert.Sage.host_project_apply (R := 100000) (I := 64) (O := 8) _ rfl _ _ bo _ _ _ p q).symm

/-- Three layers, the projection and the slice: the kernel program's result is the reference's, as functions of the
    argument arrays. -/
theorem total_eq (ei : Cert.KernelIdeal.Chain.Edges) (x : K.Feat)
    (wl1 : FVec Ideal S64x64 .f32) (bl1 : FVec Ideal S64 .f32) (wr1 : FVec Ideal S64x64 .f32)
    (wl2 : FVec Ideal S64x64 .f32) (bl2 : FVec Ideal S64 .f32) (wr2 : FVec Ideal S64x64 .f32)
    (wl3 : FVec Ideal S64x64 .f32) (bl3 : FVec Ideal S64 .f32) (wr3 : FVec Ideal S64x64 .f32)
    (wo : FVec Ideal S8x64 .f32) (bo : FVec Ideal S8 .f32) :
    extractStridedSlice S99999x8 ![0, 0]
        (Cert.Sage.project
          (Cert.KernelIdeal.Chain.layer (Cert.KernelIdeal.Chain.srcVec ei) (Cert.KernelIdeal.Chain.dstVec ei)
            (Cert.KernelIdeal.Chain.layer (Cert.KernelIdeal.Chain.srcVec ei) (Cert.KernelIdeal.Chain.dstVec ei)
              (Cert.KernelIdeal.Chain.layer (Cert.KernelIdeal.Chain.srcVec ei) (Cert.KernelIdeal.Chain.dstVec ei) x wl1 bl1 wr1)
              wl2 bl2 wr2) wl3 bl3 wr3)
          (transpose S64x8 [1, 0] wo Cert.KernelIdeal.Gen.transposes_S8x64_S64x8_1_0)
          (shapeCast S1x8 bo Cert.KernelIdeal.Gen.shapeCasts_S8_S1x8))
        Cert.KernelIdeal.Gen.slices_S100000x8_S99999x8_0_0
      = Cert.ReferenceIdeal.RefValue.output
          (Cert.ReferenceIdeal.RefValue.layer (Cert.ReferenceIdeal.RefValue.srcVec ei) (Cert.ReferenceIdeal.RefValue.dstVec ei)
            (Cert.ReferenceIdeal.RefValue.layer (Cert.ReferenceIdeal.RefValue.srcVec ei) (Cert.ReferenceIdeal.RefValue.dstVec ei)
              (Cert.ReferenceIdeal.RefValue.layer (Cert.ReferenceIdeal.RefValue.srcVec ei) (Cert.ReferenceIdeal.RefValue.dstVec ei) x wl1 bl1 wr1)
              wl2 bl2 wr2) wl3 bl3 wr3) wo bo := by
  rw [output_eq, layer_eq, layer_eq, layer_eq, srcVec_eq, dstVec_eq]

end Cert.Bridge

end
-- ==== Proof.lean ====
/-
  A three-layer mean-aggregation graph network: the kernel program against its reference, on the extended reals.

  Each layer gathers, for every edge, the source node's feature row, adds the rows up per target node, turns the sums
  into neighbourhood means, and returns max(mean · Wlᵀ + h · Wrᵀ + bl, 0); a last product with Woᵀ plus bo follows and the
  last node's row is dropped.  The kernel program leaves the gather and the sums to host operations, scales the sums by a
  reciprocal degree computed once, and runs the dense part of every layer — and the last product — as a pipelined kernel
  call over 20 blocks of 5000 rows; the reference is plain array code that divides by the degree and adds the bias
  between the two products.

  * The three frames: the two kernel programs' are the generated frame certificates; the reference has no kernel and its
    frame is its run with the result dropped.
  * The idealization rewrote nothing, so there is nothing to preserve.
  * The algebraic claim: the kernel program's run ends with its result at three layers, the projection and the slice of the
    launch memory's arguments (Proof/Chain0–3.lean over Proof/Layer0–3.lean: each kernel call's output array is the layer, or
    the projection, of the arrays it finds, because an entry reads its own row only and the blocks tile the array), the
    reference's at the same composition in the host's spelling (Proof/RefValue.lean), and the two compositions are one
    function (Proof/Bridge.lean over Proof/SageSpec.lean): `a · (1 / c) = a / c` for `c = max(cnt, 1) ≠ 0`,
    `(A + B) + b = (A + b) + B`, and a matrix product is the same sum of products however it is tiled.  No finiteness of the
    inputs is used.
-/
import proofs.«160452_j37692632990431_1_alg».proof.Defs
import proofs.«160452_j37692632990431_1_alg».proof.Proof.Gen.Kernel
import proofs.«160452_j37692632990431_1_alg».proof.Proof.Gen.Kernel.Frame
import proofs.«160452_j37692632990431_1_alg».proof.Proof.Gen.KernelIdeal
import proofs.«160452_j37692632990431_1_alg».proof.Proof.Gen.KernelIdeal.Frame
import proofs.«160452_j37692632990431_1_alg».proof.Proof.Gen.ReferenceIdeal
import proofs.«160452_j37692632990431_1_alg».proof.Proof.Gen.ReferenceIdeal.Run
import proofs.«160452_j37692632990431_1_alg».proof.Proof.Gen.Pre_finite_inputs
import proofs.«160452_j37692632990431_1_alg».proof.Proof.Chain3
import proofs.«160452_j37692632990431_1_alg».proof.Proof.RefValue
import proofs.«160452_j37692632990431_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and end with one result: three layers, the projection
    and the slice of the arguments. -/
theorem algebraic : Cert.algebraic_KernelIdeal_ReferenceIdeal := by
  intro m ρ m' ρ' _ hagree
  refine ⟨fun c => Cert.KernelIdeal.Chain.result m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  unfold Cert.ReferenceIdeal.RefValue.H3 Cert.ReferenceIdeal.RefValue.H2 Cert.ReferenceIdeal.RefValue.H1
  unfold Cert.ReferenceIdeal.RefValue.src Cert.ReferenceIdeal.RefValue.dst
  obtain ⟨h0, h1, h2, h3, h4, h5, h6, h7, h8, h9, h10, h11, h12⟩ := hagree c
  rw [h0, h1, h2, h3, h4, h5, h6, h7, h8, h9, h10, h11, h12]
  exact (Cert.Bridge.total_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
